-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S4x1024x1024, .bf16⟩
  | .hbm, ⟨14, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .bf16 = 32 ∨ (Rect.block (s := S4x1024x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .bf16 = 32 ∨ (Rect.block (s := S4x1024x1024) S1x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x4096x4096 : Shape := ⟨3, ![4, 4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S_, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x4096, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_call2_cst : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call3_cst : Ref sig .tc := ⟨.hbm, 20, rfl⟩
abbrev main_call3_v0 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S_S4x4096x1024 : S_.BroadcastsInDim S4x4096x1024 (![] : Fin 0 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Kernel.Blocks.lean ====
/-
  What the two calls' bodies are stated over, at a parameter `V` — the TensorCore's buffer contents when a call is
  entered: each window's block at a grid point; that an input window's staging buffer holds its block at every point;
  the first call's two branch conditions as functions of the point (the sequence tile is the first of its batch, the
  last of its batch); where the first call's output window is idle; the staging and scratch memrefs; and the class
  invariant of the first call opened into the accumulator, the other call's staging buffers and the generator register.
-/
import proofs.«157593_j45191645889033_2_alg».proof.Proof.Gen.Kernel.Launch
import proofs.«157593_j45191645889033_2_alg».proof.Proof.Gen.Kernel.Skeleton
import proofs.«157593_j45191645889033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The first call (the Gram matrix, accumulated over the sequence tiles of a batch) -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: its current staging buffer holds its block at every point, fetched there or not
    (unfetched, the block index has not moved since the point that fetched it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0: its current staging buffer holds its block at every point, fetched there or not
    (unfetched, the block index has not moved since the point that fetched it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of call 0: its current staging buffer holds its block at every point, fetched there or not
    (unfetched, the block index has not moved since the point that fetched it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The second call (the output, one sequence tile per point) -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: its current staging buffer holds its block at every point, fetched there or not
    (unfetched, the block index has not moved since the point that fetched it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1: its current staging buffer holds its block at every point, fetched there or not
    (unfetched, the block index has not moved since the point that fetched it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1: its current staging buffer holds its block at every point, fetched there or not
    (unfetched, the block index has not moved since the point that fetched it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1: its current staging buffer holds its block at every point, fetched there or not
    (unfetched, the block index has not moved since the point that fetched it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first call's branch conditions -/

/-- "This is the first sequence tile of its batch": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last sequence tile of its batch": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off a batch's last tile the body stores nothing into the output window, -/
theorem idleAt0_3 : ∀ t : Fin cfg0.N, ¬cond0_1 (grid0.coords t) → cfg0.idle 3 (grid0.coords t) = true := by decide +kernel
/-- and the window is not written back there; -/
theorem noFlush0_3 : ∀ t : Fin cfg0.N, ¬cond0_1 (grid0.coords t) → (cfg0.win 3).flush t = false := by decide +kernel
/-- on the last tile it stores into it. -/
theorem liveAt0_3 : ∀ t : Fin cfg0.N, cond0_1 (grid0.coords t) → cfg0.idle 3 (grid0.coords t) = false := by decide +kernel

/-! ## The memrefs the bodies are called with -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
/-- The accumulator: a whole scoped buffer of the first call's own, carried from point to point. -/
abbrev scM0 : Memref sig .tc .vmem S1024x1024 .f32 := Memref.whole cc0_scratch0
/-- One staging buffer of the first call's output window, and the accumulator, as views. -/
abbrev VO0_3 : View sig .tc .vmem S1x1024x1024 .bf16 := (Memref.whole cc0_stg3_0 : Memref sig .tc .vmem S1x1024x1024 .bf16).view
abbrev VS0 : View sig .tc .vmem S1024x1024 .f32 := scM0.view

/-! ## The first call's class invariant, opened -/

/-- The scoped buffers the first call's body never touches (the second call's staging buffers), each whole at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant is the accumulator at some contents, those buffers, and the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.Kernel.Frame

end
-- ==== Proof.Kernel.Run0A.lean ====
/-
  The first call's body in the case of the first sequence tile of a batch (and not the last).
-/
import proofs.«157593_j45191645889033_2_alg».proof.Proof.Kernel.Blocks

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at the first sequence tile of a batch (and not the last): the accumulator, found at anything, is reset and the
    tile's contribution added; the output window is handed back untouched.
    On whole memrefs, the three inputs at their contents, the body runs to the continuation holding the inputs as they
    were and each buffer it stored into with its stored pieces written (last first); the pieces are found by running
    the body's skeleton, each conditional decided by the case's hypotheses. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x1024x1024 .bf16)), { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__compute_m_kernel i arg2 harg2 arg3 harg3 arg4 harg4 arg5 harg5 arg6 harg6) K } := by
  refine ⟨[], ?_, fun xi3 E K => ?run⟩
  case run =>
    simp only [cc0__compute_m_kernel_eq_skeleton]; unfold cc0__compute_m_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.Kernel.Run0B.lean ====
/-
  The first call's body in the case of a sequence tile that is neither the first nor the last of its batch.
-/
import proofs.«157593_j45191645889033_2_alg».proof.Proof.Kernel.Blocks

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a sequence tile that is neither the first nor the last of its batch: the tile's contribution is added to the
    accumulator the point before left; the output window is handed back untouched.
    On whole memrefs, the three inputs at their contents, the body runs to the continuation holding the inputs as they
    were and each buffer it stored into with its stored pieces written (last first); the pieces are found by running
    the body's skeleton, each conditional decided by the case's hypotheses. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .bf16)), { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__compute_m_kernel i arg2 harg2 arg3 harg3 arg4 harg4 arg5 harg5 arg6 harg6) K } := by
  refine ⟨[], ?_, fun xi3 E K => ?run⟩
  case run =>
    simp only [cc0__compute_m_kernel_eq_skeleton]; unfold cc0__compute_m_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.Kernel.Run0C.lean ====
/-
  The first call's body in the case of the last sequence tile of a batch (and not the first).
-/
import proofs.«157593_j45191645889033_2_alg».proof.Proof.Kernel.Blocks

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at the last sequence tile of a batch (and not the first): the tile's contribution is added to the accumulator the
    point before left, and the accumulator is stored, whole, into the output window.
    On whole memrefs, the three inputs at their contents, the body runs to the continuation holding the inputs as they
    were and each buffer it stored into with its stored pieces written (last first); the pieces are found by running
    the body's skeleton, each conditional decided by the case's hypotheses. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__compute_m_kernel i arg2 harg2 arg3 harg3 arg4 harg4 arg5 harg5 arg6 harg6) K } := by
  refine ⟨?_, ?_, fun E K => ?run⟩
  case run =>
    simp only [cc0__compute_m_kernel_eq_skeleton]; unfold cc0__compute_m_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.Kernel.Body0.lean ====
/-
  The first call's accumulation, at a parameter `V`. At every point the body adds one sequence tile's contribution
  (the tile's two rectified projections, contracted over the tile's rows) to a 1024 × 1024 accumulator it keeps
  between points; at the first tile of a batch the accumulator is first reset, and at the last it is stored into the
  output window. So what the accumulator and the output window hold after a point is defined by recursion on the
  point: the case the point is in, run over the point's input blocks and over what the point before left in the
  accumulator. The invariant between points is the accumulator at that value beside the buffers the body never
  touches; the proof data name each input window's block and these values; the body obligation is a case split on
  the two conditions' closed forms.
-/
import proofs.«157593_j45191645889033_2_alg».proof.Proof.Kernel.Run0A
import proofs.«157593_j45191645889033_2_alg».proof.Proof.Kernel.Run0B
import proofs.«157593_j45191645889033_2_alg».proof.Proof.Kernel.Run0C

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A at point `t`, on the memrefs the body is called with there. -/
abbrev runA (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) :=
  kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1 x2

/-- Its pieces for the accumulator tile it. -/
theorem scover0_A (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) (y : S1024x1024.Idx) :
    ∃ pc ∈ (runA c t hc0 hc1 x0 x1 x2).2.1, y ∈ pc.1.set :=
  View.cover_of_tiledL (runA c t hc0 hc1 x0 x1 x2).2.1 S1024x1024.size (by sl_kernel_rfl) y

/-- What case A leaves in the accumulator: its pieces read back. -/
def sout0_A (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) : Vec F S1024x1024 .f32 :=
  VS0.read (Elt F) (VS0.writes (Elt F) VS0.junk (runA c t hc0 hc1 x0 x1 x2).2.1)

/-- What case A leaves in the output window's buffer: its pieces read back (none: a placeholder nothing consults, the window being idle and not written back at the case's points). -/
def out0_A_3 (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) : Vec F S1x1024x1024 .bf16 :=
  VO0_3.read (Elt F) (VO0_3.writes (Elt F) VO0_3.junk (runA c t hc0 hc1 x0 x1 x2).1)

/-- Case B at point `t`, on the memrefs the body is called with there. -/
abbrev runB (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) :=
  kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 x2 xs0

/-- Its pieces for the accumulator tile it. -/
theorem scover0_B (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) (y : S1024x1024.Idx) :
    ∃ pc ∈ (runB c t hc0 hc1 x0 x1 x2 xs0).2.1, y ∈ pc.1.set :=
  View.cover_of_tiledL (runB c t hc0 hc1 x0 x1 x2 xs0).2.1 S1024x1024.size (by sl_kernel_rfl) y

/-- What case B leaves in the accumulator: its pieces read back. -/
def sout0_B (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) : Vec F S1024x1024 .f32 :=
  VS0.read (Elt F) (VS0.writes (Elt F) VS0.junk (runB c t hc0 hc1 x0 x1 x2 xs0).2.1)

/-- What case B leaves in the output window's buffer: its pieces read back (none: a placeholder nothing consults, the window being idle and not written back at the case's points). -/
def out0_B_3 (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) : Vec F S1x1024x1024 .bf16 :=
  VO0_3.read (Elt F) (VO0_3.writes (Elt F) VO0_3.junk (runB c t hc0 hc1 x0 x1 x2 xs0).1)

/-- Case C at point `t`, on the memrefs the body is called with there. -/
abbrev runC (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) :=
  kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs0

/-- Its pieces for the accumulator tile it. -/
theorem scover0_C (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) (y : S1024x1024.Idx) :
    ∃ pc ∈ (runC c t hc0 hc1 x0 x1 x2 xs0).2.1, y ∈ pc.1.set :=
  View.cover_of_tiledL (runC c t hc0 hc1 x0 x1 x2 xs0).2.1 S1024x1024.size (by sl_kernel_rfl) y

/-- What case C leaves in the accumulator: its pieces read back. -/
def sout0_C (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) : Vec F S1024x1024 .f32 :=
  VS0.read (Elt F) (VS0.writes (Elt F) VS0.junk (runC c t hc0 hc1 x0 x1 x2 xs0).2.1)

/-- What case C leaves in the output window's buffer: its pieces read back. -/
def out0_C_3 (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) : Vec F S1x1024x1024 .bf16 :=
  VO0_3.read (Elt F) (VO0_3.writes (Elt F) VO0_3.junk (runC c t hc0 hc1 x0 x1 x2 xs0).1)

/-- Case C's piece for the output window is the whole block. -/
theorem cover0_C_3 (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) (y : S1x1024x1024.Idx) :
    ∃ pc ∈ (runC c t hc0 hc1 x0 x1 x2 xs0).1, y ∈ pc.1.set :=
  View.cover_of_tiledL (runC c t hc0 hc1 x0 x1 x2 xs0).1 S1x1024x1024.size (by sl_kernel_rfl) y

section
variable (V : (c : Dev nD) → (b : Ref sig .tc) → Buf (Elt F) ((c : Thread nD τ).loc b))

/-! ## What the output window and the accumulator hold after each point -/

/-- After the body at position `n`: the output window's buffer, then the accumulator. -/
def outsAt0 (c : Dev nD) : (n : ℕ) → n < cfg0.N → Vec F S1x1024x1024 .bf16 × Vec F S1024x1024 .f32
  | 0, hn => (out0_A_3 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c t ((hcond0_0 t).mpr h0) (fun h => h1 ((hcond0_1 t).mp h)) (iblk0 V c 0 t) (iblk0 V c 1 t) (iblk0 V c 2 t), sout0_A c t ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c t (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c t (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class invariant (the accumulator at anything); afterwards the accumulator at what the
    point before left in it, the buffers the body never touches, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The first call's proof data on core `c`: the arrays as the call finds them; after the body at point `t` each
    input's buffer at its block and the output's at `outsAt0`'s first component; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms say which case the point is in;
    the invariant hands the body the accumulator at what the point before left (at anything before the first point)
    and takes it back at this point's value; off a batch's last tile the output window is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((runA c t ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c t _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runA c t ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c t _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runC c t (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c t _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c t _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runB c t (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c t _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hoth⟩, Hg⟩
  isplitl [HS0 Hoth]
  · isplitl [HS0]
    · iexists _; iexact HS0
    iexact Hoth
  iexact Hg

end

end Cert.Kernel.Frame

end
-- ==== Proof.Kernel.Body1.lean ====
/-
  The second call's body at a parameter `V`: on one sequence tile it projects the tile by the first weight, rectifies,
  multiplies by the batch's Gram matrix, projects by the last weight and rectifies, and stores the tile whole.
  What the output window's buffer holds after the body is that one stored piece over the four input blocks; the
  body's triple; the proof data (every input window left at its block, the output at the stored piece, the class
  invariant untouched); the body obligation.
-/
import proofs.«157593_j45191645889033_2_alg».proof.Proof.Kernel.Blocks

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The whole rectangles of a sequence tile, a weight matrix and a batch's Gram matrix. -/
abbrev rTile : Rect S1x512x1024 := Rect.unit (s := S1x512x1024) ![0, 0, 0] S1x512x1024.size inb_S1x512x1024_S1x512x1024_0_0_0
abbrev rWgt : Rect S1024x1024 := Rect.unit (s := S1024x1024) ![0, 0] S1024x1024.size inb_S1024x1024_S1024x1024_0_0
abbrev rGram : Rect S1x1024x1024 := Rect.unit (s := S1x1024x1024) ![0, 0, 0] S1x1024x1024.size inb_S1x1024x1024_S1x1024x1024_0_0_0

/-- The output window's buffer after the body, from the input windows' blocks: its one store. -/
def out1_4 (x0 : Vec F S1x512x1024 .f32) (x1 : Vec F S1024x1024 .bf16) (x2 : Vec F S1x1024x1024 .bf16) (x3 : Vec F S1024x1024 .bf16) : Vec F S1x512x1024 .f32 :=
  View.canon [⟨rTile, k1_pay1 (View.ld x0 rTile) (View.ld x1 rWgt) (View.ld x2 rGram) (View.ld x3 rWgt)⟩]

/-- The store is of the whole tile, so it covers the buffer. -/
theorem cover1_4 (p0 : Vec F S1x512x1024 .f32) (y : S1x512x1024.Idx) :
    ∃ pc ∈ ([⟨rTile, p0⟩] : List (View.Piece (Elt F) S1x512x1024 .f32)), y ∈ pc.1.set :=
  View.cover_of_tiled [⟨rTile, p0⟩] S1x512x1024.size (by rfl) y

set_option maxHeartbeats 1000000 in
/-- The body on whole staging memrefs, the inputs' at contents `xW` and the output's at anything, runs to the
    continuation holding the inputs' as they were and the output's at `out1_4` of them. -/
theorem sound_kernel1 (c : Dev nD) (E : Set ℕ) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole)
    (x0 : Vec F S1x512x1024 .f32) (x1 : Vec F S1024x1024 .bf16) (x2 : Vec F S1x1024x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__compute_out_kernel i arg2 harg2 arg3 harg3 arg4 harg4 arg5 harg5 arg6 harg6) K := by
  simp only [cc1__compute_out_kernel_eq_skeleton]; unfold cc1__compute_out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The second call's proof data on core `c`: the arrays as the call finds them; after the body each input's buffer at
    its block and the output's at `out1_4` of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frame

end
-- ==== Proof.Kernel.Run.lean ====
/-
  The whole run. The TensorCore's buffer contents at each boundary of @main are a fold from the launch memory:
  after the eight host operations (each weight transposed, then its format changed), after the first call (its
  arrays at what its write-backs leave, every other buffer as entered), after the second call likewise. Each call is
  a segment entered from "every unscoped buffer at the boundary's contents, the generator register at some state,
  nothing owed" and left at the next boundary's. The launch over the segments gives: every weakly fair execution of
  @main terminates, nothing faults, and every unscoped buffer ends at the last boundary's contents — in particular
  each argument as launched (no host operation writes one, and a call only reads its input windows' arrays), and
  the result at what the second call's write-backs leave.
-/
import proofs.«157593_j45191645889033_2_alg».proof.Proof.Kernel.Body0
import proofs.«157593_j45191645889033_2_alg».proof.Proof.Kernel.Body1

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev B0 : Dev nD → Valuation τ sig (Elt F) := fun c b => m ((c : Dev nD), b)
/-- After the host operations (the first call's entry). -/
abbrev B1 : Dev nD → Valuation τ sig (Elt F) := fun c => StableHlo.after hostOps0 (B0 m c)
abbrev Vb1 : (c : Dev nD) → (b : Ref sig .tc) → Buf (Elt F) ((c : Thread nD τ).loc b) := fun c b => B1 m c b
/-- At the first call's exit (the second call's entry). -/
def B2 (c : Dev nD) : Valuation τ sig (Elt F) :=
  Pipeline.withArrays spec0 c (B1 m c) fun w => (dat0 (Vb1 m) c).arrAt w cfg0.N
theorem B2_arr (c : Dev nD) (w : Fin cfg0.W) :
    B2 m c (Proc.devRef .tc (Pipeline.arrRef spec0 w)) = (dat0 (Vb1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Vb2 : (c : Dev nD) → (b : Ref sig .tc) → Buf (Elt F) ((c : Thread nD τ).loc b) := fun c b => B2 m c b
theorem hF0 (c : Dev nD) (w : Fin cfg0.W) : (dat0 (Vb1 m) c).arrAt w cfg0.N = Vb2 m c (Pipeline.arrRef spec0 w) :=
  (B2_arr m c w).symm
theorem hrest0 (c : Dev nD) : ∀ b, b ∉ Finset.univ.image (Pipeline.arrRef spec0) → Vb2 m c b = Vb1 m c b :=
  fun b hb => B2_of_ne m c b fun w e => hb (Finset.mem_image.mpr ⟨w, Finset.mem_univ _, e⟩)

/-- At the second call's exit (what the launch reads at the end). -/
def B3 (c : Dev nD) : Valuation τ sig (Elt F) :=
  Pipeline.withArrays spec1 c (B2 m c) fun w => (dat1 (Vb2 m) c).arrAt w cfg1.N
theorem B3_arr (c : Dev nD) (w : Fin cfg1.W) :
    B3 m c (Proc.devRef .tc (Pipeline.arrRef spec1 w)) = (dat1 (Vb2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev Vb3 : (c : Dev nD) → (b : Ref sig .tc) → Buf (Elt F) ((c : Thread nD τ).loc b) := fun c b => B3 m c b
theorem hF1 (c : Dev nD) (w : Fin cfg1.W) : (dat1 (Vb2 m) c).arrAt w cfg1.N = Vb3 m c (Pipeline.arrRef spec1 w) :=
  (B3_arr m c w).symm
theorem hrest1 (c : Dev nD) : ∀ b, b ∉ Finset.univ.image (Pipeline.arrRef spec1) → Vb3 m c b = Vb2 m c b :=
  fun b hb => B3_of_ne m c b fun w e => hb (Finset.mem_image.mpr ⟨w, Finset.mem_univ _, e⟩)

/-! ## The arguments end as launched -/

/-- `main_arg0` is the first window's array of both calls, an input of each: it ends as launched. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (Vb2 m) c).arrAt_in 0 rfl _).trans (A_eq1 (Vb2 m) c 0))
    _ = B1 m c (Proc.devRef .tc main_arg0) := (B2_arr m c 0).trans (((dat0 (Vb1 m) c).arrAt_in 0 rfl _).trans (A_eq0 (Vb1 m) c 0))
    _ = B0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` is no window's array and no host operation's result: it ends as launched. -/
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` is no window's array and no host operation's result: it ends as launched. -/
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is no window's array and no host operation's result: it ends as launched. -/
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` is no window's array and no host operation's result: it ends as launched. -/
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) adm p) c
  | ⟨0, _⟩ => fun c => dat0 (Vb1 m) c
  | ⟨1, _⟩ => fun c => dat1 (Vb2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The calls as segments -/

set_option backward.isDefEq.respectTransparency.types false in
/-- Call 0 over the thread state: entered from every unscoped buffer at `B1`, left at `B2`. Its arrays
    are split out of the unscoped buffers and put back at what the write-backs leave; the generator register goes
    into the call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin0 (Vb1 m) c)
    unfold Pipeline.ΦA
    change (_ : sProp 𝕄) ⊢ _
    iintro ⟨Hp, -, Hr⟩
    isplitl [Hr]; · iexact Hr
    iexact Hp
  hout c := by
    refine Idealize.SL.BI.Entails.trans (hout0 (Vb1 m) c) ?_
    rw [Pipeline.ownSems0_none]; unfold Pipeline.ΦA
    change (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `B2`, left at `B3`. Its arrays
    are split out of the unscoped buffers and put back at what the write-backs leave; the generator register goes
    into the call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb2 m c) (Vb3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c)⟩) (run_all m ρ)

/-- The result array ends at what the second call's write-backs leave in it. -/
theorem result_eq (c : Dev nD) : B3 m c (Proc.devRef .tc main_v9) = (dat1 (Vb2 m) c).arrAt 4 cfg1.N :=
  B3_arr m c 4

end Cert.Kernel.Frame

end
-- ==== Proof.KernelIdeal.Blocks.lean ====
/-
  What the two calls' bodies are stated over, at a parameter `V` — the TensorCore's buffer contents when a call is
  entered: each window's block at a grid point; that an input window's staging buffer holds its block at every point;
  the first call's two branch conditions as functions of the point (the sequence tile is the first of its batch, the
  last of its batch); where the first call's output window is idle; the staging and scratch memrefs; and the class
  invariant of the first call opened into the accumulator, the other call's staging buffers and the generator register.
-/
import proofs.«157593_j45191645889033_2_alg».proof.Proof.Gen.KernelIdeal.Launch
import proofs.«157593_j45191645889033_2_alg».proof.Proof.Gen.KernelIdeal.Skeleton
import proofs.«157593_j45191645889033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The first call (the Gram matrix, accumulated over the sequence tiles of a batch) -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: its current staging buffer holds its block at every point, fetched there or not
    (unfetched, the block index has not moved since the point that fetched it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0: its current staging buffer holds its block at every point, fetched there or not
    (unfetched, the block index has not moved since the point that fetched it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of call 0: its current staging buffer holds its block at every point, fetched there or not
    (unfetched, the block index has not moved since the point that fetched it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The second call (the output, one sequence tile per point) -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: its current staging buffer holds its block at every point, fetched there or not
    (unfetched, the block index has not moved since the point that fetched it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of call 1: its current staging buffer holds its block at every point, fetched there or not
    (unfetched, the block index has not moved since the point that fetched it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of call 1: its current staging buffer holds its block at every point, fetched there or not
    (unfetched, the block index has not moved since the point that fetched it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of call 1: its current staging buffer holds its block at every point, fetched there or not
    (unfetched, the block index has not moved since the point that fetched it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first call's branch conditions -/

/-- "This is the first sequence tile of its batch": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last sequence tile of its batch": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off a batch's last tile the body stores nothing into the output window, -/
theorem idleAt0_3 : ∀ t : Fin cfg0.N, ¬cond0_1 (grid0.coords t) → cfg0.idle 3 (grid0.coords t) = true := by decide +kernel
/-- and the window is not written back there; -/
theorem noFlush0_3 : ∀ t : Fin cfg0.N, ¬cond0_1 (grid0.coords t) → (cfg0.win 3).flush t = false := by decide +kernel
/-- on the last tile it stores into it. -/
theorem liveAt0_3 : ∀ t : Fin cfg0.N, cond0_1 (grid0.coords t) → cfg0.idle 3 (grid0.coords t) = false := by decide +kernel

/-! ## The memrefs the bodies are called with -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
/-- The accumulator: a whole scoped buffer of the first call's own, carried from point to point. -/
abbrev scM0 : Memref sig .tc .vmem S1024x1024 .f32 := Memref.whole cc0_scratch0
/-- One staging buffer of the first call's output window, and the accumulator, as views. -/
abbrev VO0_3 : View sig .tc .vmem S1x1024x1024 .bf16 := (Memref.whole cc0_stg3_0 : Memref sig .tc .vmem S1x1024x1024 .bf16).view
abbrev VS0 : View sig .tc .vmem S1024x1024 .f32 := scM0.view

/-! ## The first call's class invariant, opened -/

/-- The scoped buffers the first call's body never touches (the second call's staging buffers), each whole at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant is the accumulator at some contents, those buffers, and the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.KernelIdeal.Frame

end
-- ==== Proof.KernelIdeal.Run0A.lean ====
/-
  The first call's body in the case of the first sequence tile of a batch (and not the last).
-/
import proofs.«157593_j45191645889033_2_alg».proof.Proof.KernelIdeal.Blocks

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at the first sequence tile of a batch (and not the last): the accumulator, found at anything, is reset and the
    tile's contribution added; the output window is handed back untouched.
    On whole memrefs, the three inputs at their contents, the body runs to the continuation holding the inputs as they
    were and each buffer it stored into with its stored pieces written (last first); the pieces are found by running
    the body's skeleton, each conditional decided by the case's hypotheses. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x1024x1024 .bf16)), { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__compute_m_kernel i arg2 harg2 arg3 harg3 arg4 harg4 arg5 harg5 arg6 harg6) K } := by
  refine ⟨[], ?_, fun xi3 E K => ?run⟩
  case run =>
    simp only [cc0__compute_m_kernel_eq_skeleton]; unfold cc0__compute_m_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KernelIdeal.Run0B.lean ====
/-
  The first call's body in the case of a sequence tile that is neither the first nor the last of its batch.
-/
import proofs.«157593_j45191645889033_2_alg».proof.Proof.KernelIdeal.Blocks

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a sequence tile that is neither the first nor the last of its batch: the tile's contribution is added to the
    accumulator the point before left; the output window is handed back untouched.
    On whole memrefs, the three inputs at their contents, the body runs to the continuation holding the inputs as they
    were and each buffer it stored into with its stored pieces written (last first); the pieces are found by running
    the body's skeleton, each conditional decided by the case's hypotheses. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .bf16)), { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__compute_m_kernel i arg2 harg2 arg3 harg3 arg4 harg4 arg5 harg5 arg6 harg6) K } := by
  refine ⟨[], ?_, fun xi3 E K => ?run⟩
  case run =>
    simp only [cc0__compute_m_kernel_eq_skeleton]; unfold cc0__compute_m_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.KernelIdeal.Run0C.lean ====
/-
  The first call's body in the case of the last sequence tile of a batch (and not the first).
-/
import proofs.«157593_j45191645889033_2_alg».proof.Proof.KernelIdeal.Blocks

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at the last sequence tile of a batch (and not the first): the tile's contribution is added to the accumulator the
    point before left, and the accumulator is stored, whole, into the output window.
    On whole memrefs, the three inputs at their contents, the body runs to the continuation holding the inputs as they
    were and each buffer it stored into with its stored pieces written (last first); the pieces are found by running
    the body's skeleton, each conditional decided by the case's hypotheses. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__compute_m_kernel i arg2 harg2 arg3 harg3 arg4 harg4 arg5 harg5 arg6 harg6) K } := by
  refine ⟨?_, ?_, fun E K => ?run⟩
  case run =>
    simp only [cc0__compute_m_kernel_eq_skeleton]; unfold cc0__compute_m_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.KernelIdeal.Body0.lean ====
/-
  The first call's accumulation, at a parameter `V`. At every point the body adds one sequence tile's contribution
  (the tile's two rectified projections, contracted over the tile's rows) to a 1024 × 1024 accumulator it keeps
  between points; at the first tile of a batch the accumulator is first reset, and at the last it is stored into the
  output window. So what the accumulator and the output window hold after a point is defined by recursion on the
  point: the case the point is in, run over the point's input blocks and over what the point before left in the
  accumulator. The invariant between points is the accumulator at that value beside the buffers the body never
  touches; the proof data name each input window's block and these values; the body obligation is a case split on
  the two conditions' closed forms.
-/
import proofs.«157593_j45191645889033_2_alg».proof.Proof.KernelIdeal.Run0A
import proofs.«157593_j45191645889033_2_alg».proof.Proof.KernelIdeal.Run0B
import proofs.«157593_j45191645889033_2_alg».proof.Proof.KernelIdeal.Run0C

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Case A at point `t`, on the memrefs the body is called with there. -/
abbrev runA (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) :=
  kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1 x2

/-- Its pieces for the accumulator tile it. -/
theorem scover0_A (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) (y : S1024x1024.Idx) :
    ∃ pc ∈ (runA c t hc0 hc1 x0 x1 x2).2.1, y ∈ pc.1.set :=
  View.cover_of_tiledL (runA c t hc0 hc1 x0 x1 x2).2.1 S1024x1024.size (by sl_kernel_rfl) y

/-- What case A leaves in the accumulator: its pieces read back. -/
def sout0_A (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) : Vec F S1024x1024 .f32 :=
  VS0.read (Elt F) (VS0.writes (Elt F) VS0.junk (runA c t hc0 hc1 x0 x1 x2).2.1)

/-- What case A leaves in the output window's buffer: its pieces read back (none: a placeholder nothing consults, the window being idle and not written back at the case's points). -/
def out0_A_3 (c : Dev nD) (t : Fin cfg0.N) (hc0 : cond0_0 (grid0.coords t)) (hc1 : ¬cond0_1 (grid0.coords t)) (x0 : Vec F S1x512x1024 .f32) (x1 : Vec F S1024x1024 .bf16) (x2 : Vec F S1024x1024 .bf16) : Vec F S1x1024x1024 .bf16 :=
  VO0_3.read (Elt F) (VO0_3.writes (Elt F) VO0_3.junk (runA c t hc0 hc1 x0 x1 x2).1)

/-- Case B at point `t`, on the memrefs the body is called with there. -/
abbrev runB (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) :=
  kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 x2 xs0

/-- Its pieces for the accumulator tile it. -/
theorem scover0_B (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) (y : S1024x1024.Idx) :
    ∃ pc ∈ (runB c t hc0 hc1 x0 x1 x2 xs0).2.1, y ∈ pc.1.set :=
  View.cover_of_tiledL (runB c t hc0 hc1 x0 x1 x2 xs0).2.1 S1024x1024.size (by sl_kernel_rfl) y

/-- What case B leaves in the accumulator: its pieces read back. -/
def sout0_B (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) : Vec F S1024x1024 .f32 :=
  VS0.read (Elt F) (VS0.writes (Elt F) VS0.junk (runB c t hc0 hc1 x0 x1 x2 xs0).2.1)

/-- What case B leaves in the output window's buffer: its pieces read back (none: a placeholder nothing consults, the window being idle and not written back at the case's points). -/
def out0_B_3 (c : Dev nD) (t : Fin cfg0.N) (hc0 : ¬cond0_0 (grid0.coords t)) (hc1 : ¬cond0_1 (grid0.coords t)) (x0 : Vec F S1x512x1024 .f32) (x1 : Vec F S1024x1024 .bf16) (x2 : Vec F S1024x1024 .bf16) (xs0 : Vec F S1024x1024 .f32) : Vec F S1x1024x1024 .bf16 :=
  VO0_3.read (Elt F) (VO0_3.writes (Elt F) VO0_3.junk (runB c t hc0 hc1 x0 x1 x2 xs0).1)

/-- Case C at point `t`, on the memrefs the body is called with there. -/
abbrev runC (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) :=
  kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs0

/-- Its pieces for the accumulator tile it. -/
theorem scover0_C (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) (y : S1024x1024.Idx) :
    ∃ pc ∈ (runC c t hc0 hc1 x0 x1 x2 xs0).2.1, y ∈ pc.1.set :=
  View.cover_of_tiledL (runC c t hc0 hc1 x0 x1 x2 xs0).2.1 S1024x1024.size (by sl_kernel_rfl) y

/-- What case C leaves in the accumulator: its pieces read back. -/
def sout0_C (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) : Vec F S1024x1024 .f32 :=
  VS0.read (Elt F) (VS0.writes (Elt F) VS0.junk (runC c t hc0 hc1 x0 x1 x2 xs0).2.1)

/-- What case C leaves in the output window's buffer: its pieces read back. -/
def out0_C_3 (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) : Vec F S1x1024x1024 .bf16 :=
  VO0_3.read (Elt F) (VO0_3.writes (Elt F) VO0_3.junk (runC c t hc0 hc1 x0 x1 x2 xs0).1)

/-- Case C's piece for the output window is the whole block. -/
theorem cover0_C_3 (c : Dev nD) (t : Fin cfg0.N) (hc0 : ¬cond0_0 (grid0.coords t)) (hc1 : cond0_1 (grid0.coords t)) (x0 : Vec F S1x512x1024 .f32) (x1 : Vec F S1024x1024 .bf16) (x2 : Vec F S1024x1024 .bf16) (xs0 : Vec F S1024x1024 .f32) (y : S1x1024x1024.Idx) :
    ∃ pc ∈ (runC c t hc0 hc1 x0 x1 x2 xs0).1, y ∈ pc.1.set :=
  View.cover_of_tiledL (runC c t hc0 hc1 x0 x1 x2 xs0).1 S1x1024x1024.size (by sl_kernel_rfl) y

section
variable (V : (c : Dev nD) → (b : Ref sig .tc) → Buf (Elt F) ((c : Thread nD τ).loc b))

/-! ## What the output window and the accumulator hold after each point -/

/-- After the body at position `n`: the output window's buffer, then the accumulator. -/
def outsAt0 (c : Dev nD) : (n : ℕ) → n < cfg0.N → Vec F S1x1024x1024 .bf16 × Vec F S1024x1024 .f32
  | 0, hn => (out0_A_3 c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c ⟨0, hn⟩ ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c ⟨n + 1, hn⟩ ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c ⟨n + 1, hn⟩ (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c ⟨n + 1, hn⟩ (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c t ((hcond0_0 t).mpr h0) (fun h => h1 ((hcond0_1 t).mp h)) (iblk0 V c 0 t) (iblk0 V c 1 t) (iblk0 V c 2 t), sout0_A c t ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c t (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c t (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c t (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class invariant (the accumulator at anything); afterwards the accumulator at what the
    point before left in it, the buffers the body never touches, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The first call's proof data on core `c`: the arrays as the call finds them; after the body at point `t` each
    input's buffer at its block and the output's at `outsAt0`'s first component; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms say which case the point is in;
    the invariant hands the body the accumulator at what the point before left (at anything before the first point)
    and takes it back at this point's value; off a batch's last tile the output window is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((runA c t ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c t _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((runA c t ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c t _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runC c t (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c t _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c t _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((runB c t (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c t _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hoth⟩, Hg⟩
  isplitl [HS0 Hoth]
  · isplitl [HS0]
    · iexists _; iexact HS0
    iexact Hoth
  iexact Hg

end

end Cert.KernelIdeal.Frame

end
-- ==== Proof.KernelIdeal.Body1.lean ====
/-
  The second call's body at a parameter `V`: on one sequence tile it projects the tile by the first weight, rectifies,
  multiplies by the batch's Gram matrix, projects by the last weight and rectifies, and stores the tile whole.
  What the output window's buffer holds after the body is that one stored piece over the four input blocks; the
  body's triple; the proof data (every input window left at its block, the output at the stored piece, the class
  invariant untouched); the body obligation.
-/
import proofs.«157593_j45191645889033_2_alg».proof.Proof.KernelIdeal.Blocks

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The whole rectangles of a sequence tile, a weight matrix and a batch's Gram matrix. -/
abbrev rTile : Rect S1x512x1024 := Rect.unit (s := S1x512x1024) ![0, 0, 0] S1x512x1024.size inb_S1x512x1024_S1x512x1024_0_0_0
abbrev rWgt : Rect S1024x1024 := Rect.unit (s := S1024x1024) ![0, 0] S1024x1024.size inb_S1024x1024_S1024x1024_0_0
abbrev rGram : Rect S1x1024x1024 := Rect.unit (s := S1x1024x1024) ![0, 0, 0] S1x1024x1024.size inb_S1x1024x1024_S1x1024x1024_0_0_0

/-- The output window's buffer after the body, from the input windows' blocks: its one store. -/
def out1_4 (x0 : Vec F S1x512x1024 .f32) (x1 : Vec F S1024x1024 .bf16) (x2 : Vec F S1x1024x1024 .bf16) (x3 : Vec F S1024x1024 .bf16) : Vec F S1x512x1024 .f32 :=
  View.canon [⟨rTile, k1_pay1 (View.ld x0 rTile) (View.ld x1 rWgt) (View.ld x2 rGram) (View.ld x3 rWgt)⟩]

/-- The store is of the whole tile, so it covers the buffer. -/
theorem cover1_4 (p0 : Vec F S1x512x1024 .f32) (y : S1x512x1024.Idx) :
    ∃ pc ∈ ([⟨rTile, p0⟩] : List (View.Piece (Elt F) S1x512x1024 .f32)), y ∈ pc.1.set :=
  View.cover_of_tiled [⟨rTile, p0⟩] S1x512x1024.size (by rfl) y

set_option maxHeartbeats 1000000 in
/-- The body on whole staging memrefs, the inputs' at contents `xW` and the output's at anything, runs to the
    continuation holding the inputs' as they were and the output's at `out1_4` of them. -/
theorem sound_kernel1 (c : Dev nD) (E : Set ℕ) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x512x1024 .f32) (harg6 : arg6.IsWhole)
    (x0 : Vec F S1x512x1024 .f32) (x1 : Vec F S1024x1024 .bf16) (x2 : Vec F S1x1024x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__compute_out_kernel i arg2 harg2 arg3 harg3 arg4 harg4 arg5 harg5 arg6 harg6) K := by
  simp only [cc1__compute_out_kernel_eq_skeleton]; unfold cc1__compute_out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The second call's proof data on core `c`: the arrays as the call finds them; after the body each input's buffer at
    its block and the output's at `out1_4` of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frame

end
-- ==== Proof.KernelIdeal.Run.lean ====
/-
  The whole run. The TensorCore's buffer contents at each boundary of @main are a fold from the launch memory:
  after the eight host operations (each weight transposed, then its format changed), after the first call (its
  arrays at what its write-backs leave, every other buffer as entered), after the second call likewise. Each call is
  a segment entered from "every unscoped buffer at the boundary's contents, the generator register at some state,
  nothing owed" and left at the next boundary's. The launch over the segments gives: every weakly fair execution of
  @main terminates, nothing faults, and every unscoped buffer ends at the last boundary's contents — in particular
  each argument as launched (no host operation writes one, and a call only reads its input windows' arrays), and
  the result at what the second call's write-backs leave.
-/
import proofs.«157593_j45191645889033_2_alg».proof.Proof.KernelIdeal.Body0
import proofs.«157593_j45191645889033_2_alg».proof.Proof.KernelIdeal.Body1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev B0 : Dev nD → Valuation τ sig (Elt F) := fun c b => m ((c : Dev nD), b)
/-- After the host operations (the first call's entry). -/
abbrev B1 : Dev nD → Valuation τ sig (Elt F) := fun c => StableHlo.after hostOps0 (B0 m c)
abbrev Vb1 : (c : Dev nD) → (b : Ref sig .tc) → Buf (Elt F) ((c : Thread nD τ).loc b) := fun c b => B1 m c b
/-- At the first call's exit (the second call's entry). -/
def B2 (c : Dev nD) : Valuation τ sig (Elt F) :=
  Pipeline.withArrays spec0 c (B1 m c) fun w => (dat0 (Vb1 m) c).arrAt w cfg0.N
theorem B2_arr (c : Dev nD) (w : Fin cfg0.W) :
    B2 m c (Proc.devRef .tc (Pipeline.arrRef spec0 w)) = (dat0 (Vb1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev Vb2 : (c : Dev nD) → (b : Ref sig .tc) → Buf (Elt F) ((c : Thread nD τ).loc b) := fun c b => B2 m c b
theorem hF0 (c : Dev nD) (w : Fin cfg0.W) : (dat0 (Vb1 m) c).arrAt w cfg0.N = Vb2 m c (Pipeline.arrRef spec0 w) :=
  (B2_arr m c w).symm
theorem hrest0 (c : Dev nD) : ∀ b, b ∉ Finset.univ.image (Pipeline.arrRef spec0) → Vb2 m c b = Vb1 m c b :=
  fun b hb => B2_of_ne m c b fun w e => hb (Finset.mem_image.mpr ⟨w, Finset.mem_univ _, e⟩)

/-- At the second call's exit (what the launch reads at the end). -/
def B3 (c : Dev nD) : Valuation τ sig (Elt F) :=
  Pipeline.withArrays spec1 c (B2 m c) fun w => (dat1 (Vb2 m) c).arrAt w cfg1.N
theorem B3_arr (c : Dev nD) (w : Fin cfg1.W) :
    B3 m c (Proc.devRef .tc (Pipeline.arrRef spec1 w)) = (dat1 (Vb2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev Vb3 : (c : Dev nD) → (b : Ref sig .tc) → Buf (Elt F) ((c : Thread nD τ).loc b) := fun c b => B3 m c b
theorem hF1 (c : Dev nD) (w : Fin cfg1.W) : (dat1 (Vb2 m) c).arrAt w cfg1.N = Vb3 m c (Pipeline.arrRef spec1 w) :=
  (B3_arr m c w).symm
theorem hrest1 (c : Dev nD) : ∀ b, b ∉ Finset.univ.image (Pipeline.arrRef spec1) → Vb3 m c b = Vb2 m c b :=
  fun b hb => B3_of_ne m c b fun w e => hb (Finset.mem_image.mpr ⟨w, Finset.mem_univ _, e⟩)

/-! ## The arguments end as launched -/

/-- `main_arg0` is the first window's array of both calls, an input of each: it ends as launched. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (Vb2 m) c).arrAt_in 0 rfl _).trans (A_eq1 (Vb2 m) c 0))
    _ = B1 m c (Proc.devRef .tc main_arg0) := (B2_arr m c 0).trans (((dat0 (Vb1 m) c).arrAt_in 0 rfl _).trans (A_eq0 (Vb1 m) c 0))
    _ = B0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` is no window's array and no host operation's result: it ends as launched. -/
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` is no window's array and no host operation's result: it ends as launched. -/
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is no window's array and no host operation's result: it ends as launched. -/
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` is no window's array and no host operation's result: it ends as launched. -/
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) adm p) c
  | ⟨0, _⟩ => fun c => dat0 (Vb1 m) c
  | ⟨1, _⟩ => fun c => dat1 (Vb2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The calls as segments -/

set_option backward.isDefEq.respectTransparency.types false in
/-- Call 0 over the thread state: entered from every unscoped buffer at `B1`, left at `B2`. Its arrays
    are split out of the unscoped buffers and put back at what the write-backs leave; the generator register goes
    into the call's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin0 (Vb1 m) c)
    unfold Pipeline.ΦA
    change (_ : sProp 𝕄) ⊢ _
    iintro ⟨Hp, -, Hr⟩
    isplitl [Hr]; · iexact Hr
    iexact Hp
  hout c := by
    refine Idealize.SL.BI.Entails.trans (hout0 (Vb1 m) c) ?_
    rw [Pipeline.ownSems0_none]; unfold Pipeline.ΦA
    change (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `B2`, left at `B3`. Its arrays
    are split out of the unscoped buffers and put back at what the write-backs leave; the generator register goes
    into the call's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb2 m c) (Vb3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c)⟩) (run_all m ρ)

/-- The result array ends at what the second call's write-backs leave in it. -/
theorem result_eq (c : Dev nD) : B3 m c (Proc.devRef .tc main_v9) = (dat1 (Vb2 m) c).arrAt 4 cfg1.N :=
  B3_arr m c 4

end Cert.KernelIdeal.Frame

end
-- ==== Proof.Payloads.lean ====
/-
  The kernels' arithmetic, read entry by entry over the extended reals.

  First kernel, one grid point: the block of 512 rows of the activations is projected by two weight matrices
  (held transposed, so that entry (d, e) of the held matrix multiplies feature d into output feature e) and
  rectified; the two rectified blocks, 512 × 1024 each, are multiplied contracting their ROW axis, which adds to
  the accumulator at (e, f) the sum over the block's rows r of first[r, e] · second[r, f]. The accumulator is
  started at zero and, at the last point, copied out with a unit axis in front.
  Second kernel, one grid point: the block of rows is projected by the first weight matrix and rectified,
  multiplied by the accumulated 1024 × 1024 matrix, then by the last weight matrix, and rectified.
  Changes of float format are the identity over the extended reals, a shape cast to the same shape is the
  identity, one that drops or adds a leading unit axis re-reads the same entry, and a matrix product into a zero
  accumulator is the finite sum over the contracted axis of left entry times right entry.
-/
import proofs.«157593_j45191645889033_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Idealize.ShloMosaic Idealize.ShloMosaic.ValueIdx Cert.KernelIdeal Cert.KernelIdeal.Gen

/-! ## The two matrix products at coordinates

  The product of a 512 × 1024 block with a 1024 × 1024 matrix contracts the block's columns with the matrix's rows;
  the product of two 512 × 1024 blocks contracts the rows of both. -/

theorem lhs_rows_0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_rows_1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs_rows_0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs_rows_1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of a block times a matrix, into a zero accumulator: ∑ k, block[p, k] · matrix[k, q]. -/
theorem rowsMatmul_apply {φ₁ φ₂ : FTy} (l : FVec Ideal S512x1024 φ₁) (r : FVec Ideal S1024x1024 φ₂) (p : Fin 512) (q : Fin 1024) :
    matmul (F := Ideal) dot_S512x1024_S1024x1024_S512x1024_1_0_0_1_n_n none l r (constant (F := Ideal) S512x1024 .f32 0x00000000#32) (ix2 p q)
      = ∑ k : Fin 1024, l (ix2 p k) * r (ix2 k q) := by
  refine (Ideal.matmul_constant_zero_apply dot_S512x1024_S1024x1024_S512x1024_1_0_0_1_n_n none l r (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_rows_0 _ _
    | ⟨1, _⟩ => exact (lhs_rows_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_rows_0 _ _).trans hk
    | ⟨1, _⟩ => exact rhs_rows_1 _ _)
  rw [el, er]

theorem lhs_cols_0 (j : S1024x1024.Idx) (q : dot_S512x1024_S512x1024_S1024x1024_0_0_1_1_n_n.contr.Idx) :
    (dot_S512x1024_S512x1024_S1024x1024_0_0_1_1_n_n.lhsIdx j q 0).val = (q ⟨0, by decide⟩).val :=
  dot_S512x1024_S512x1024_S1024x1024_0_0_1_1_n_n.lhsIdx_val_of_single rfl j q
theorem lhs_cols_1 (j : S1024x1024.Idx) (q : dot_S512x1024_S512x1024_S1024x1024_0_0_1_1_n_n.contr.Idx) :
    (dot_S512x1024_S512x1024_S1024x1024_0_0_1_1_n_n.lhsIdx j q 1).val = (j 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhs_cols_0 (j : S1024x1024.Idx) (q : dot_S512x1024_S512x1024_S1024x1024_0_0_1_1_n_n.contr.Idx) :
    (dot_S512x1024_S512x1024_S1024x1024_0_0_1_1_n_n.rhsIdx j q 0).val = (q ⟨0, by decide⟩).val :=
  dot_S512x1024_S512x1024_S1024x1024_0_0_1_1_n_n.rhsIdx_val_of_single rfl j q
theorem rhs_cols_1 (j : S1024x1024.Idx) (q : dot_S512x1024_S512x1024_S1024x1024_0_0_1_1_n_n.contr.Idx) :
    (dot_S512x1024_S512x1024_S1024x1024_0_0_1_1_n_n.rhsIdx j q 1).val = (j 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- Entry (e, f) of the product of two blocks over their rows, into a zero accumulator: ∑ k, first[k, e] · second[k, f]. -/
theorem colsMatmul_apply {φ₁ φ₂ : FTy} (l : FVec Ideal S512x1024 φ₁) (r : FVec Ideal S512x1024 φ₂) (e f : Fin 1024) :
    matmul (F := Ideal) dot_S512x1024_S512x1024_S1024x1024_0_0_1_1_n_n none l r (constant (F := Ideal) S1024x1024 .f32 0x00000000#32) (ix2 e f)
      = ∑ k : Fin 512, l (ix2 k e) * r (ix2 k f) := by
  refine (Ideal.matmul_constant_zero_apply dot_S512x1024_S512x1024_S1024x1024_0_0_1_1_n_n none l r (ix2 e f)).trans ?_
  rw [← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 e f) ((contrEquiv1 dot_S512x1024_S512x1024_S1024x1024_0_0_1_1_n_n 512 rfl rfl).symm k) = ix2 k e := funext fun a => Fin.ext (by
    match a with
    | ⟨0, _⟩ => exact (lhs_cols_0 _ _).trans hk
    | ⟨1, _⟩ => exact lhs_cols_1 _ _)
  have er : dot_S512x1024_S512x1024_S1024x1024_0_0_1_1_n_n.rhsIdx (ix2 e f) ((contrEquiv1 dot_S512x1024_S512x1024_S1024x1024_0_0_1_1_n_n 512 rfl rfl).symm k) = ix2 k f := funext fun a => Fin.ext (by
    match a with
    | ⟨0, _⟩ => exact (rhs_cols_0 _ _).trans hk
    | ⟨1, _⟩ => exact rhs_cols_1 _ _)
  rw [el, er]

/-! ## The pieces the two kernels share -/

/-- The zero literal denotes 0. -/
theorem zero_scalar : Scalar.ofBits (F := Ideal) .f32 0x00000000#32 = 0 := Ideal.ofBits_zero_f32

/-- A block of rows projected by a held matrix and rectified, at (r, e): max (∑ d, x[0, r, d] · w[d, e]) 0. -/
theorem blockProj_apply (x : FVec Ideal S1x512x1024 .f32) (w : FVec Ideal S1024x1024 .bf16) (r : Fin 512) (e : Fin 1024) :
    maximumf (F := Ideal)
        (matmul (F := Ideal) dot_S512x1024_S1024x1024_S512x1024_1_0_0_1_n_n none
          (truncf (F := Ideal) .bf16 (shapeCast S512x1024 x shapeCasts_S1x512x1024_S512x1024) bitsLt_bf16_f32)
          (shapeCast S1024x1024 w shapeCasts_S1024x1024_S1024x1024)
          (constant (F := Ideal) S512x1024 .f32 0x00000000#32))
        (broadcast S512x1024 (Scalar.ofBits (F := Ideal) .f32 0x00000000#32)) (ix2 r e)
      = max (∑ d : Fin 1024, x (ix3 0 r d) * w (ix2 d e)) 0 := by
  refine (maximumf_apply _ _ _).trans ?_
  refine (congrArg₂ max (rowsMatmul_apply _ _ r e) zero_scalar).trans ?_
  refine congrArg (fun t => max t 0) (Finset.sum_congr rfl fun k _ => ?_)
  exact congrArg₂ (· * ·) (shapeCast_1ab_ab_apply x _ r k) (congrFun (shapeCast_self w _) (ix2 k e))

/-! ## The first kernel's stores -/

/-- The accumulator's update at (e, f): what it held plus, over the block's rows, the product of the two rectified
    projections. -/
theorem pay2_apply (v3 : Vec Ideal S1x512x1024 .f32) (v6 v8 : Vec Ideal S1024x1024 .bf16) (v19 : Vec Ideal S1024x1024 .f32)
    (e f : Fin 1024) :
    k0_pay2 (F := Ideal) v3 v6 v8 v19 (ix2 e f)
      = v19 (ix2 e f) + ∑ r : Fin 512, max (∑ d : Fin 1024, v3 (ix3 0 r d) * v6 (ix2 d e)) 0
          * max (∑ d : Fin 1024, v3 (ix3 0 r d) * v8 (ix2 d f)) 0 := by
  unfold k0_pay2
  refine (congrFun (shapeCast_self _ _) (ix2 e f)).trans ?_
  refine (addf_apply _ _ _).trans ?_
  refine congrArg (fun t => v19 (ix2 e f) + t) ?_
  refine (colsMatmul_apply _ _ e f).trans ?_
  refine Finset.sum_congr rfl fun r _ => ?_
  exact congrArg₂ (· * ·) (blockProj_apply v3 v6 r e) (blockProj_apply v3 v8 r f)

/-- The accumulator's start: zero everywhere. -/
theorem pay1_apply (j : S1024x1024.Idx) : k0_pay1 (F := Ideal) j = 0 := by
  unfold k0_pay1
  refine (congrFun (shapeCast_self _ _) j).trans ?_
  exact zero_scalar

/-- The accumulator copied out behind a unit axis: entry (0, e, f) is the accumulator's (e, f). -/
theorem pay3_apply (v27 : Vec Ideal S1024x1024 .f32) (e f : Fin 1024) :
    k0_pay3 (F := Ideal) v27 (ix3 0 e f) = v27 (ix2 e f) := by
  unfold k0_pay3
  exact shapeCast_ab_1ab_apply _ _ 0 e f

/-! ## The second kernel's store -/

/-- Entry (0, r, g) of the output block: the block's row r projected and rectified, times the accumulated matrix,
    times the last held matrix, rectified. -/
theorem out_apply (v0 : Vec Ideal S1x512x1024 .f32) (v3 : Vec Ideal S1024x1024 .bf16) (v9 : Vec Ideal S1x1024x1024 .bf16)
    (v13 : Vec Ideal S1024x1024 .bf16) (r : Fin 512) (g : Fin 1024) :
    k1_pay1 (F := Ideal) v0 v3 v9 v13 (ix3 0 r g)
      = max (∑ f : Fin 1024, (∑ e : Fin 1024, max (∑ d : Fin 1024, v0 (ix3 0 r d) * v3 (ix2 d e)) 0 * v9 (ix3 0 e f))
          * v13 (ix2 f g)) 0 := by
  unfold k1_pay1
  refine (shapeCast_ab_1ab_apply _ _ 0 r g).trans ?_
  refine (maximumf_apply _ _ _).trans ?_
  refine (congrArg₂ max (rowsMatmul_apply _ _ r g) zero_scalar).trans ?_
  refine congrArg (fun t => max t 0) (Finset.sum_congr rfl fun f _ => ?_)
  refine congrArg₂ (· * ·) ?_ (congrFun (shapeCast_self v13 _) (ix2 f g))
  refine (rowsMatmul_apply _ _ r f).trans ?_
  refine Finset.sum_congr rfl fun e _ => ?_
  exact congrArg₂ (· * ·) (blockProj_apply v0 v3 r e) (shapeCast_1ab_ab_apply v9 _ e f)

/-! ## A weight matrix as the kernels hold it -/

/-- The held matrix is the weight matrix transposed (and re-formatted, which changes nothing here): entry (d, e)
    is the weight's (e, d). -/
theorem transposed_apply (w : FVec Ideal S1024x1024 .f32) (h1 : S1024x1024.Transposes [1, 0] S1024x1024)
    (h2 : FTy.bits .bf16 < FTy.bits .f32) (d e : Fin 1024) :
    (truncf (F := Ideal) .bf16 (transpose S1024x1024 [1, 0] w h1) h2 : FVec Ideal S1024x1024 .bf16) (ix2 d e) = w (ix2 e d) :=
  transpose_ix2_apply w h1 d e

end Cert.KernelIdeal.Payloads

end
-- ==== Proof.KernelIdeal.HostStage.lean ====
/-
  The weights as the calls find them. Before the first call the host transposes each weight matrix and changes its
  format; at the ideal values a change of format is the identity, so entry (d, e) of what a call's window holds is
  entry (e, d) of the argument.
-/
import proofs.«157593_j45191645889033_2_alg».proof.Proof.KernelIdeal.Run
import proofs.«157593_j45191645889033_2_alg».proof.Proof.Payloads
import Idealize.ShloMosaic.Lib.StableHlo.Run

noncomputable section

namespace Cert.KernelIdeal.Frame

open Idealize.ShloMosaic Idealize.ShloMosaic.TcCoe Idealize.SL.Sem Idealize.ShloMosaic.ValueIdx
open Cert.KernelIdeal Cert.KernelIdeal.Gen Cert.KernelIdeal.Payloads

variable (m : (ℓ : Loc nD τ sig) → Buf (Elt Ideal) ℓ)

/-- The first weight, transposed. -/
theorem stage_v1 (c : Dev nD) (d e : Fin 1024) :
    (Vb1 m c main_v1 : S1024x1024.Idx → EReal) (ix2 d e) = (m ((c : Thread nD τ).loc main_arg1) : S1024x1024.Idx → EReal) (ix2 e d) := by
  have h : (Vb1 m c main_v1 : S1024x1024.Idx → EReal)
      = truncf (F := Ideal) .bf16 (transpose S1024x1024 [1, 0] (m ((c : Thread nD τ).loc main_arg1)) transposes_S1024x1024_S1024x1024_1_0) bitsLt_bf16_f32 := by
    show StableHlo.after hostOps0 (fun b => m (c, b)) (Proc.devRef .tc main_v1) = _
    after_results
  rw [h]
  exact transposed_apply _ _ _ d e

/-- The second weight, transposed. -/
theorem stage_v3 (c : Dev nD) (d e : Fin 1024) :
    (Vb1 m c main_v3 : S1024x1024.Idx → EReal) (ix2 d e) = (m ((c : Thread nD τ).loc main_arg2) : S1024x1024.Idx → EReal) (ix2 e d) := by
  have h : (Vb1 m c main_v3 : S1024x1024.Idx → EReal)
      = truncf (F := Ideal) .bf16 (transpose S1024x1024 [1, 0] (m ((c : Thread nD τ).loc main_arg2)) transposes_S1024x1024_S1024x1024_1_0) bitsLt_bf16_f32 := by
    show StableHlo.after hostOps0 (fun b => m (c, b)) (Proc.devRef .tc main_v3) = _
    after_results
  rw [h]
  exact transposed_apply _ _ _ d e

/-- The third weight, transposed. -/
theorem stage_v5 (c : Dev nD) (d e : Fin 1024) :
    (Vb1 m c main_v5 : S1024x1024.Idx → EReal) (ix2 d e) = (m ((c : Thread nD τ).loc main_arg3) : S1024x1024.Idx → EReal) (ix2 e d) := by
  have h : (Vb1 m c main_v5 : S1024x1024.Idx → EReal)
      = truncf (F := Ideal) .bf16 (transpose S1024x1024 [1, 0] (m ((c : Thread nD τ).loc main_arg3)) transposes_S1024x1024_S1024x1024_1_0) bitsLt_bf16_f32 := by
    show StableHlo.after hostOps0 (fun b => m (c, b)) (Proc.devRef .tc main_v5) = _
    after_results
  rw [h]
  exact transposed_apply _ _ _ d e

/-- The fourth weight, transposed. -/
theorem stage_v7 (c : Dev nD) (d e : Fin 1024) :
    (Vb1 m c main_v7 : S1024x1024.Idx → EReal) (ix2 d e) = (m ((c : Thread nD τ).loc main_arg4) : S1024x1024.Idx → EReal) (ix2 e d) := by
  have h : (Vb1 m c main_v7 : S1024x1024.Idx → EReal)
      = truncf (F := Ideal) .bf16 (transpose S1024x1024 [1, 0] (m ((c : Thread nD τ).loc main_arg4)) transposes_S1024x1024_S1024x1024_1_0) bitsLt_bf16_f32 := by
    show StableHlo.after hostOps0 (fun b => m (c, b)) (Proc.devRef .tc main_v7) = _
    after_results
  rw [h]
  exact transposed_apply _ _ _ d e

/-- The activations reach the first call as launched. -/
theorem stage_arg0 (c : Dev nD) : Vb1 m c main_arg0 = m ((c : Thread nD τ).loc main_arg0) := by
  show StableHlo.after hostOps0 (fun b => m (c, b)) (Proc.devRef .tc main_arg0) = _
  after_results

end Cert.KernelIdeal.Frame

end
-- ==== Proof.KernelIdeal.Pieces.lean ====
/-
  What each case of the first call's body leaves, as values: the pieces the runs found are each one whole-buffer
  store, so reading them back gives the stored payload itself. On the first tile of a batch the accumulator ends at
  the tile's contribution added to the zero matrix; on any other tile at the contribution added to what the point
  before left; on the last tile the output window's buffer ends at the accumulator, cast and given a unit leading
  axis. Likewise the second call's one stored piece is its payload over the four input blocks.
-/
import proofs.«157593_j45191645889033_2_alg».proof.Proof.KernelIdeal.Body0
import proofs.«157593_j45191645889033_2_alg».proof.Proof.KernelIdeal.Body1
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A tile that is neither first nor last: the contribution is added to what the point before left. -/
theorem sout_B (c : Dev nD) (t : Fin cfg0.N) (hc0 : ¬cond0_0 (grid0.coords t)) (hc1 : ¬cond0_1 (grid0.coords t))
    (x0 : Vec F S1x512x1024 .f32) (x1 : Vec F S1024x1024 .bf16) (x2 : Vec F S1024x1024 .bf16) (xs0 : Vec F S1024x1024 .f32) :
    sout0_B (F := F) c t hc0 hc1 x0 x1 x2 xs0 = k0_pay2 x0 x1 x2 xs0 := by
  unfold sout0_B
  rw [View.read_writes_eq_canon _ _ _ (scover0_B c t hc0 hc1 x0 x1 x2 xs0)]
  unfold runB kernelRun0_B
  dsimp only
  rw [View.canon_unit_zero hz2]
  simp only [View.readAt_eq_ld, Memref.IsWhole.read_unread, View.ld_unit_zero (S := S1x512x1024) hz3, View.ld_unit_zero (S := S1024x1024) hz2]
  exact congrArg (k0_pay2 x0 x1 x2) ((Memref.isWhole_whole _).read_unread _)

/-- The first tile of a batch: the contribution is added to the zero matrix just stored. -/
theorem sout_A (c : Dev nD) (t : Fin cfg0.N) (hc0 : cond0_0 (grid0.coords t)) (hc1 : ¬cond0_1 (grid0.coords t))
    (x0 : Vec F S1x512x1024 .f32) (x1 : Vec F S1024x1024 .bf16) (x2 : Vec F S1024x1024 .bf16) :
    sout0_A (F := F) c t hc0 hc1 x0 x1 x2 = k0_pay2 x0 x1 x2 k0_pay1 := by
  unfold sout0_A
  rw [View.read_writes_eq_canon _ _ _ (scover0_A c t hc0 hc1 x0 x1 x2)]
  unfold runA kernelRun0_A
  dsimp only
  sl_unfold_words
  rw [View.canon_cons_unit_zero (S := S1024x1024) hz2, View.readCov_unit_zero (S := S1024x1024) _ hz2]
  simp only [View.readAt_eq_ld, Memref.IsWhole.read_unread, View.ld_unit_zero (S := S1x512x1024) hz3, View.ld_unit_zero (S := S1024x1024) hz2]

/-- The last tile of a batch: the accumulator as for any later tile, -/
theorem sout_C (c : Dev nD) (t : Fin cfg0.N) (hc0 : ¬cond0_0 (grid0.coords t)) (hc1 : cond0_1 (grid0.coords t))
    (x0 : Vec F S1x512x1024 .f32) (x1 : Vec F S1024x1024 .bf16) (x2 : Vec F S1024x1024 .bf16) (xs0 : Vec F S1024x1024 .f32) :
    sout0_C (F := F) c t hc0 hc1 x0 x1 x2 xs0 = k0_pay2 x0 x1 x2 xs0 := by
  unfold sout0_C
  rw [View.read_writes_eq_canon _ _ _ (scover0_C c t hc0 hc1 x0 x1 x2 xs0)]
  unfold runC kernelRun0_C
  dsimp only
  sl_unfold_words
  rw [View.canon_unit_zero hz2]
  simp only [View.readAt_eq_ld, Memref.IsWhole.read_unread, View.ld_unit_zero (S := S1x512x1024) hz3, View.ld_unit_zero (S := S1024x1024) hz2]
  exact congrArg (k0_pay2 x0 x1 x2) ((Memref.isWhole_whole _).read_unread _)

/-- and the output window's buffer at that accumulator, stored whole. -/
theorem out_C (c : Dev nD) (t : Fin cfg0.N) (hc0 : ¬cond0_0 (grid0.coords t)) (hc1 : cond0_1 (grid0.coords t))
    (x0 : Vec F S1x512x1024 .f32) (x1 : Vec F S1024x1024 .bf16) (x2 : Vec F S1024x1024 .bf16) (xs0 : Vec F S1024x1024 .f32) :
    out0_C_3 (F := F) c t hc0 hc1 x0 x1 x2 xs0 = k0_pay3 (k0_pay2 x0 x1 x2 xs0) := by
  unfold out0_C_3
  rw [View.read_writes_eq_canon _ _ _ (cover0_C_3 c t hc0 hc1 x0 x1 x2 xs0)]
  unfold runC kernelRun0_C
  dsimp only
  sl_unfold_words
  rw [View.canon_unit_zero hz3, View.readCov_unit_zero (S := S1024x1024) _ hz2]
  simp only [View.readAt_eq_ld, Memref.IsWhole.read_unread, View.ld_unit_zero (S := S1x512x1024) hz3, View.ld_unit_zero (S := S1024x1024) hz2]
  exact congrArg (fun a => k0_pay3 (k0_pay2 x0 x1 x2 a)) ((Memref.isWhole_whole _).read_unread _)

/-- The second call's output buffer after the body is its payload over the four input blocks. -/
theorem out1_4_eq (x0 : Vec F S1x512x1024 .f32) (x1 : Vec F S1024x1024 .bf16) (x2 : Vec F S1x1024x1024 .bf16) (x3 : Vec F S1024x1024 .bf16) :
    out1_4 x0 x1 x2 x3 = k1_pay1 x0 x1 x2 x3 := by
  unfold out1_4
  rw [View.canon_unit_zero hz3]
  simp only [View.ld_unit_zero (S := S1x512x1024) hz3, View.ld_unit_zero (S := S1024x1024) hz2, View.ld_unit_zero (S := S1x1024x1024) hz3]

end Cert.KernelIdeal.Frame

end
-- ==== Proof.KernelIdeal.Accum.lean ====
/-
  The accumulator after each point of the first call, as one recursion over the points' blocks: the tile's
  contribution is added to the zero matrix on the first tile of a batch and to the previous point's accumulator on
  every other tile. On a batch's last tile the output window's buffer holds that accumulator, cast and reshaped.
-/
import proofs.«157593_j45191645889033_2_alg».proof.Proof.KernelIdeal.Pieces

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after position `n`. -/
def accAt (c : Dev nD) : (n : ℕ) → n < cfg0.N → Vec F S1024x1024 .f32
  | 0, h => k0_pay2 (iblk0 V c 0 ⟨0, h⟩) (iblk0 V c 1 ⟨0, h⟩) (iblk0 V c 2 ⟨0, h⟩) k0_pay1
  | n + 1, h => k0_pay2 (iblk0 V c 0 ⟨n + 1, h⟩) (iblk0 V c 1 ⟨n + 1, h⟩) (iblk0 V c 2 ⟨n + 1, h⟩)
      (if (n + 1) % 8 = 0 then k0_pay1 else accAt c n (Nat.lt_of_succ_lt h))

theorem accAt_zero (c : Dev nD) (h : 0 < cfg0.N) :
    accAt V c 0 h = k0_pay2 (iblk0 V c 0 ⟨0, h⟩) (iblk0 V c 1 ⟨0, h⟩) (iblk0 V c 2 ⟨0, h⟩) k0_pay1 := rfl

theorem accAt_first (c : Dev nD) (n : ℕ) (h : n + 1 < cfg0.N) (h0 : (n + 1) % 8 = 0) :
    accAt V c (n + 1) h = k0_pay2 (iblk0 V c 0 ⟨n + 1, h⟩) (iblk0 V c 1 ⟨n + 1, h⟩) (iblk0 V c 2 ⟨n + 1, h⟩) k0_pay1 := by
  show k0_pay2 _ _ _ (if (n + 1) % 8 = 0 then k0_pay1 else accAt V c n (Nat.lt_of_succ_lt h)) = _
  rw [if_pos h0]

theorem accAt_later (c : Dev nD) (n : ℕ) (h : n + 1 < cfg0.N) (h0 : ¬(n + 1) % 8 = 0) :
    accAt V c (n + 1) h = k0_pay2 (iblk0 V c 0 ⟨n + 1, h⟩) (iblk0 V c 1 ⟨n + 1, h⟩) (iblk0 V c 2 ⟨n + 1, h⟩) (accAt V c n (Nat.lt_of_succ_lt h)) := by
  show k0_pay2 _ _ _ (if (n + 1) % 8 = 0 then k0_pay1 else accAt V c n (Nat.lt_of_succ_lt h)) = _
  rw [if_neg h0]

-- the point-by-point definition is used through its case equations only, never unfolded
attribute [local irreducible] outsAt0

/-- What the point-by-point definition keeps in the accumulator is this recursion: by induction on the point. -/
theorem acc_eq (c : Dev nD) : ∀ (n : ℕ) (h : n < cfg0.N), (outsAt0 V c n h).2 = accAt V c n h
  | 0, h => by
    have h0 : (⟨0, h⟩ : Fin cfg0.N).val % 8 = 0 := rfl
    have h1 : ¬(⟨0, h⟩ : Fin cfg0.N).val % 8 = 7 := fun e => by (try dsimp only at e); omega
    have e := congrArg Prod.snd (outsAt0_A V c ⟨0, h⟩ h0 h1)
    dsimp only at e
    rw [e, accAt_zero]
    exact sout_A c ⟨0, h⟩ _ _ (iblk0 V c 0 ⟨0, h⟩) (iblk0 V c 1 ⟨0, h⟩) (iblk0 V c 2 ⟨0, h⟩)
  | n + 1, h => by
    by_cases h0 : (n + 1) % 8 = 0
    · have h1 : ¬(n + 1) % 8 = 7 := by omega
      have e := congrArg Prod.snd (outsAt0_A V c ⟨n + 1, h⟩ h0 h1)
      dsimp only at e
      rw [e, accAt_first V c n h h0]
      exact sout_A c ⟨n + 1, h⟩ _ _ (iblk0 V c 0 ⟨n + 1, h⟩) (iblk0 V c 1 ⟨n + 1, h⟩) (iblk0 V c 2 ⟨n + 1, h⟩)
    · by_cases h1 : (n + 1) % 8 = 7
      · have e := congrArg Prod.snd (outsAt0_C V c ⟨n + 1, h⟩ h0 h1)
        dsimp only at e
        simp only [Nat.add_sub_cancel] at e
        rw [e, accAt_later V c n h h0, ← acc_eq c n (Nat.lt_of_succ_lt h)]
        exact sout_C c ⟨n + 1, h⟩ _ _ (iblk0 V c 0 ⟨n + 1, h⟩) (iblk0 V c 1 ⟨n + 1, h⟩) (iblk0 V c 2 ⟨n + 1, h⟩) (outsAt0 V c n (Nat.lt_of_succ_lt h)).2
      · have e := congrArg Prod.snd (outsAt0_B V c ⟨n + 1, h⟩ h0 h1)
        dsimp only at e
        simp only [Nat.add_sub_cancel] at e
        rw [e, accAt_later V c n h h0, ← acc_eq c n (Nat.lt_of_succ_lt h)]
        exact sout_B c ⟨n + 1, h⟩ _ _ (iblk0 V c 0 ⟨n + 1, h⟩) (iblk0 V c 1 ⟨n + 1, h⟩) (iblk0 V c 2 ⟨n + 1, h⟩) (outsAt0 V c n (Nat.lt_of_succ_lt h)).2

/-- On a batch's last tile the output window's buffer holds the accumulator of that point. -/
theorem out_last (c : Dev nD) : ∀ (n : ℕ) (h : n < cfg0.N), n % 8 = 7 →
    (outsAt0 V c n h).1 = k0_pay3 (accAt V c n h)
  | 0, h, h1 => absurd h1 (by decide)
  | n + 1, h, h1 => by
    have h0 : ¬(n + 1) % 8 = 0 := by omega
    have e := congrArg Prod.fst (outsAt0_C V c ⟨n + 1, h⟩ h0 h1)
    dsimp only at e
    simp only [Nat.add_sub_cancel] at e
    rw [e, accAt_later V c n h h0, ← acc_eq V c n (Nat.lt_of_succ_lt h)]
    exact out_C c ⟨n + 1, h⟩ _ _ (iblk0 V c 0 ⟨n + 1, h⟩) (iblk0 V c 1 ⟨n + 1, h⟩) (iblk0 V c 2 ⟨n + 1, h⟩) (outsAt0 V c n (Nat.lt_of_succ_lt h)).2

end

end Cert.KernelIdeal.Frame

end
-- ==== Proof.KernelIdeal.BlockReads.lean ====
/-
  The windows' blocks, read at coordinates.

  Both calls run over the same 4 × 8 grid: point t works on batch t / 8 and on sequence tile t mod 8, 512 rows of
  the 4096. The activations and the second call's output move in blocks [1, 512, 1024] at block index
  (t / 8, t mod 8, 0), so entry (0, r, d) of the block at t is entry (t / 8, 512 · (t mod 8) + r, d) of the array;
  the per-batch 1024 × 1024 matrices move in blocks [1, 1024, 1024] at block index (t / 8, 0, 0), so entry (0, e, f)
  of the block is entry (t / 8, e, f) of the array; the weight matrices are one block, the whole array.
  A block's coordinate on an axis is always block index × block size + the coordinate inside the block.
  The first call writes its output block back at the last tile of each batch, the second at every point; either way
  every entry of the output array lies in the block of some point that writes back.
  All of it holds for arbitrary contents of the array and for any float values.
-/
import proofs.«157593_j45191645889033_2_alg».proof.Proof.KernelIdeal.Blocks
import Idealize.ShloMosaic.Lib.Pipeline.Value
import Idealize.ShloMosaic.Lib.ValueIdx

set_option maxRecDepth 16384

noncomputable section

namespace Cert.KernelIdeal.Frame

open Idealize.ShloMosaic Idealize.ShloMosaic.TcCoe Idealize.ShloMosaic.ValueIdx
open Idealize.SL.Sem
open Cert.KernelIdeal Cert.KernelIdeal.Gen

variable {F : FTy → Type} [FloatOps F]

/-! ## Indices of a block with a leading unit axis -/

/-- Every index of a [1, a, b] block is (0, p, q). -/
theorem eq_ix3_unit {a b : ℕ} (y : (⟨3, ![1, a, b]⟩ : Shape).Idx) : y = ix3 (0 : Fin 1) (y 1) (y 2) := by
  funext c
  match c with
  | ⟨0, _⟩ => exact Subsingleton.elim (α := Fin 1) _ _
  | ⟨1, _⟩ => rfl
  | ⟨2, _⟩ => rfl

/-! ## The block index of every window at every point -/

theorem idx0_0 : ∀ t : Fin cfg0.N, win0_0.index t 0 = t.val / 8 ∧ win0_0.index t 1 = t.val % 8 ∧ win0_0.index t 2 = 0 :=
  (by decide +kernel : ∀ t : Fin grid0.N, _)
theorem idx0_1 : ∀ t : Fin cfg0.N, win0_1.index t 0 = 0 ∧ win0_1.index t 1 = 0 :=
  (by decide +kernel : ∀ t : Fin grid0.N, _)
theorem idx0_2 : ∀ t : Fin cfg0.N, win0_2.index t 0 = 0 ∧ win0_2.index t 1 = 0 :=
  (by decide +kernel : ∀ t : Fin grid0.N, _)
theorem idx0_3 : ∀ t : Fin cfg0.N, win0_3.index t 0 = t.val / 8 ∧ win0_3.index t 1 = 0 ∧ win0_3.index t 2 = 0 :=
  (by decide +kernel : ∀ t : Fin grid0.N, _)
theorem idx1_0 : ∀ t : Fin cfg1.N, win1_0.index t 0 = t.val / 8 ∧ win1_0.index t 1 = t.val % 8 ∧ win1_0.index t 2 = 0 :=
  (by decide +kernel : ∀ t : Fin grid1.N, _)
theorem idx1_1 : ∀ t : Fin cfg1.N, win1_1.index t 0 = 0 ∧ win1_1.index t 1 = 0 :=
  (by decide +kernel : ∀ t : Fin grid1.N, _)
theorem idx1_2 : ∀ t : Fin cfg1.N, win1_2.index t 0 = t.val / 8 ∧ win1_2.index t 1 = 0 ∧ win1_2.index t 2 = 0 :=
  (by decide +kernel : ∀ t : Fin grid1.N, _)
theorem idx1_3 : ∀ t : Fin cfg1.N, win1_3.index t 0 = 0 ∧ win1_3.index t 1 = 0 :=
  (by decide +kernel : ∀ t : Fin grid1.N, _)
theorem idx1_4 : ∀ t : Fin cfg1.N, win1_4.index t 0 = t.val / 8 ∧ win1_4.index t 1 = t.val % 8 ∧ win1_4.index t 2 = 0 :=
  (by decide +kernel : ∀ t : Fin grid1.N, _)

/-! ## A point's batch, and the rows of its sequence tile -/

/-- The batch point t of the first call works on. -/
def batch0 (t : Fin cfg0.N) : Fin 4 := ⟨t.val / 8, by have h : cfg0.N = 32 := N_0; have := t.isLt; omega⟩
/-- Row r of the sequence tile of point t of the first call, as a row of the batch. -/
def row0 (t : Fin cfg0.N) (r : Fin 512) : Fin 4096 := ⟨512 * (t.val % 8) + r.val, by have := r.isLt; omega⟩
/-- The batch point t of the second call works on. -/
def batch1 (t : Fin cfg1.N) : Fin 4 := ⟨t.val / 8, by have h : cfg1.N = 32 := N_1; have := t.isLt; omega⟩
/-- Row r of the sequence tile of point t of the second call, as a row of the batch. -/
def row1 (t : Fin cfg1.N) (r : Fin 512) : Fin 4096 := ⟨512 * (t.val % 8) + r.val, by have := r.isLt; omega⟩

/-! ## The first call's blocks -/

/-- The activations' tile at point t: entry (0, r, d) is the array's (batch, tile row r, d). -/
theorem read_tile0 (G : S4x4096x1024.Idx → Elt F .f32) (t : Fin cfg0.N) (r : Fin 512) (d : Fin 1024) :
    ((cfg0.win 0).blk t).view.read (Elt F) G (ix3 (0 : Fin 1) r d) = G (ix3 (batch0 t) (row0 t r) d) := by
  obtain ⟨e0, e1, e2⟩ := idx0_0 t
  rw [View.read_apply]
  show G _ = G _
  refine congrArg G (funext fun a => Fin.ext ?_)
  match a with
  | ⟨0, _⟩ => show win0_0.index t 0 * 1 + 1 * 0 = t.val / 8; rw [e0]; omega
  | ⟨1, _⟩ => show win0_0.index t 1 * 512 + 1 * r.val = 512 * (t.val % 8) + r.val; rw [e1]; omega
  | ⟨2, _⟩ => show win0_0.index t 2 * 1024 + 1 * d.val = d.val; rw [e2]; omega

/-- A weight matrix held whole (window 1 of the first call): the block is the array. -/
theorem read_whole0_1 (G : S1024x1024.Idx → Elt F .bf16) (t : Fin cfg0.N) (d e : Fin 1024) :
    ((cfg0.win 1).blk t).view.read (Elt F) G (ix2 d e) = G (ix2 d e) := by
  obtain ⟨e0, e1⟩ := idx0_1 t
  rw [View.read_apply]
  show G _ = G _
  refine congrArg G (funext fun a => Fin.ext ?_)
  match a with
  | ⟨0, _⟩ => show win0_1.index t 0 * 1024 + 1 * d.val = d.val; rw [e0]; omega
  | ⟨1, _⟩ => show win0_1.index t 1 * 1024 + 1 * e.val = e.val; rw [e1]; omega

/-- A weight matrix held whole (window 2 of the first call): the block is the array. -/
theorem read_whole0_2 (G : S1024x1024.Idx → Elt F .bf16) (t : Fin cfg0.N) (d e : Fin 1024) :
    ((cfg0.win 2).blk t).view.read (Elt F) G (ix2 d e) = G (ix2 d e) := by
  obtain ⟨e0, e1⟩ := idx0_2 t
  rw [View.read_apply]
  show G _ = G _
  refine congrArg G (funext fun a => Fin.ext ?_)
  match a with
  | ⟨0, _⟩ => show win0_2.index t 0 * 1024 + 1 * d.val = d.val; rw [e0]; omega
  | ⟨1, _⟩ => show win0_2.index t 1 * 1024 + 1 * e.val = e.val; rw [e1]; omega

/-- The per-batch matrix's block at point t of the first call: entry (0, e, f) is the array's (batch, e, f). -/
theorem read_gram0 (G : S4x1024x1024.Idx → Elt F .bf16) (t : Fin cfg0.N) (e f : Fin 1024) :
    ((cfg0.win 3).blk t).view.read (Elt F) G (ix3 (0 : Fin 1) e f) = G (ix3 (batch0 t) e f) := by
  obtain ⟨e0, e1, e2⟩ := idx0_3 t
  rw [View.read_apply]
  show G _ = G _
  refine congrArg G (funext fun a => Fin.ext ?_)
  match a with
  | ⟨0, _⟩ => show win0_3.index t 0 * 1 + 1 * 0 = t.val / 8; rw [e0]; omega
  | ⟨1, _⟩ => show win0_3.index t 1 * 1024 + 1 * e.val = e.val; rw [e1]; omega
  | ⟨2, _⟩ => show win0_3.index t 2 * 1024 + 1 * f.val = f.val; rw [e2]; omega

/-! ## The second call's blocks -/

/-- The activations' tile at point t of the second call. -/
theorem read_tile1 (G : S4x4096x1024.Idx → Elt F .f32) (t : Fin cfg1.N) (r : Fin 512) (d : Fin 1024) :
    ((cfg1.win 0).blk t).view.read (Elt F) G (ix3 (0 : Fin 1) r d) = G (ix3 (batch1 t) (row1 t r) d) := by
  obtain ⟨e0, e1, e2⟩ := idx1_0 t
  rw [View.read_apply]
  show G _ = G _
  refine congrArg G (funext fun a => Fin.ext ?_)
  match a with
  | ⟨0, _⟩ => show win1_0.index t 0 * 1 + 1 * 0 = t.val / 8; rw [e0]; omega
  | ⟨1, _⟩ => show win1_0.index t 1 * 512 + 1 * r.val = 512 * (t.val % 8) + r.val; rw [e1]; omega
  | ⟨2, _⟩ => show win1_0.index t 2 * 1024 + 1 * d.val = d.val; rw [e2]; omega

/-- A weight matrix held whole (window 1 of the second call): the block is the array. -/
theorem read_whole1_1 (G : S1024x1024.Idx → Elt F .bf16) (t : Fin cfg1.N) (d e : Fin 1024) :
    ((cfg1.win 1).blk t).view.read (Elt F) G (ix2 d e) = G (ix2 d e) := by
  obtain ⟨e0, e1⟩ := idx1_1 t
  rw [View.read_apply]
  show G _ = G _
  refine congrArg G (funext fun a => Fin.ext ?_)
  match a with
  | ⟨0, _⟩ => show win1_1.index t 0 * 1024 + 1 * d.val = d.val; rw [e0]; omega
  | ⟨1, _⟩ => show win1_1.index t 1 * 1024 + 1 * e.val = e.val; rw [e1]; omega

/-- The per-batch matrix's block at point t of the second call. -/
theorem read_gram1 (G : S4x1024x1024.Idx → Elt F .bf16) (t : Fin cfg1.N) (e f : Fin 1024) :
    ((cfg1.win 2).blk t).view.read (Elt F) G (ix3 (0 : Fin 1) e f) = G (ix3 (batch1 t) e f) := by
  obtain ⟨e0, e1, e2⟩ := idx1_2 t
  rw [View.read_apply]
  show G _ = G _
  refine congrArg G (funext fun a => Fin.ext ?_)
  match a with
  | ⟨0, _⟩ => show win1_2.index t 0 * 1 + 1 * 0 = t.val / 8; rw [e0]; omega
  | ⟨1, _⟩ => show win1_2.index t 1 * 1024 + 1 * e.val = e.val; rw [e1]; omega
  | ⟨2, _⟩ => show win1_2.index t 2 * 1024 + 1 * f.val = f.val; rw [e2]; omega

/-- A weight matrix held whole (window 3 of the second call): the block is the array. -/
theorem read_whole1_3 (G : S1024x1024.Idx → Elt F .bf16) (t : Fin cfg1.N) (d e : Fin 1024) :
    ((cfg1.win 3).blk t).view.read (Elt F) G (ix2 d e) = G (ix2 d e) := by
  obtain ⟨e0, e1⟩ := idx1_3 t
  rw [View.read_apply]
  show G _ = G _
  refine congrArg G (funext fun a => Fin.ext ?_)
  match a with
  | ⟨0, _⟩ => show win1_3.index t 0 * 1024 + 1 * d.val = d.val; rw [e0]; omega
  | ⟨1, _⟩ => show win1_3.index t 1 * 1024 + 1 * e.val = e.val; rw [e1]; omega

/-- The output's tile at point t of the second call: entry (0, r, g) is the array's (batch, tile row r, g). -/
theorem read_out1 (G : S4x4096x1024.Idx → Elt F .f32) (t : Fin cfg1.N) (r : Fin 512) (d : Fin 1024) :
    ((cfg1.win 4).blk t).view.read (Elt F) G (ix3 (0 : Fin 1) r d) = G (ix3 (batch1 t) (row1 t r) d) := by
  obtain ⟨e0, e1, e2⟩ := idx1_4 t
  rw [View.read_apply]
  show G _ = G _
  refine congrArg G (funext fun a => Fin.ext ?_)
  match a with
  | ⟨0, _⟩ => show win1_4.index t 0 * 1 + 1 * 0 = t.val / 8; rw [e0]; omega
  | ⟨1, _⟩ => show win1_4.index t 1 * 512 + 1 * r.val = 512 * (t.val % 8) + r.val; rw [e1]; omega
  | ⟨2, _⟩ => show win1_4.index t 2 * 1024 + 1 * d.val = d.val; rw [e2]; omega

/-! ## Every entry of an output array is written back by some point -/

/-- An index of the per-batch matrices' array is in point t's block iff each coordinate is in the block's range. -/
theorem mem_gram0 (t : Fin cfg0.N) (i : S4x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v8).slice (win0_3.rect t)).set ↔ _
  rw [View.set_slice_whole, Rect.mem_set_unit]
  exact Iff.rfl

/-- Entry (b, e, f) of the per-batch matrices is in the block of the last tile of batch b, which is written back. -/
theorem cover_gram0 (i : S4x1024x1024.Idx) :
    ∃ t : Fin cfg0.N, (cfg0.win 3).flush t = true ∧ i ∈ ((cfg0.win 3).blk t).view.set := by
  have hN : cfg0.N = 32 := N_0
  have hi0 : (i 0).val < 4 := (i 0).isLt
  have hi1 : (i 1).val < 1024 := (i 1).isLt
  have hi2 : (i 2).val < 1024 := (i 2).isLt
  obtain ⟨t, ht⟩ : ∃ t : Fin cfg0.N, t.val = 8 * (i 0).val + 7 := ⟨⟨8 * (i 0).val + 7, by omega⟩, rfl⟩
  obtain ⟨e0, e1, e2⟩ := idx0_3 t
  refine ⟨t, (flush0_3 t).mpr (by omega), ?_⟩
  rw [mem_gram0]
  intro a
  match a with
  | ⟨0, _⟩ => show win0_3.index t 0 * 1 ≤ (i 0).val ∧ (i 0).val < win0_3.index t 0 * 1 + 1; rw [e0]; omega
  | ⟨1, _⟩ => show win0_3.index t 1 * 1024 ≤ (i 1).val ∧ (i 1).val < win0_3.index t 1 * 1024 + 1024; rw [e1]; omega
  | ⟨2, _⟩ => show win0_3.index t 2 * 1024 ≤ (i 2).val ∧ (i 2).val < win0_3.index t 2 * 1024 + 1024; rw [e2]; omega

/-- An index of the output array is in point t's block iff each coordinate is in the block's range. -/
theorem mem_out1 (t : Fin cfg1.N) (i : S4x4096x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v9).slice (win1_4.rect t)).set ↔ _
  rw [View.set_slice_whole, Rect.mem_set_unit]
  exact Iff.rfl

/-- Entry (b, s, g) of the output is in the block of tile s / 512 of batch b, and every point writes back. -/
theorem cover_out1 (i : S4x4096x1024.Idx) :
    ∃ t : Fin cfg1.N, (cfg1.win 4).flush t = true ∧ i ∈ ((cfg1.win 4).blk t).view.set := by
  have hN : cfg1.N = 32 := N_1
  have hi0 : (i 0).val < 4 := (i 0).isLt
  have hi1 : (i 1).val < 4096 := (i 1).isLt
  have hi2 : (i 2).val < 1024 := (i 2).isLt
  obtain ⟨t, ht⟩ : ∃ t : Fin cfg1.N, t.val = 8 * (i 0).val + (i 1).val / 512 := ⟨⟨8 * (i 0).val + (i 1).val / 512, by omega⟩, rfl⟩
  obtain ⟨e0, e1, e2⟩ := idx1_4 t
  refine ⟨t, flush1_4 t, ?_⟩
  rw [mem_out1]
  intro a
  match a with
  | ⟨0, _⟩ => show win1_4.index t 0 * 1 ≤ (i 0).val ∧ (i 0).val < win1_4.index t 0 * 1 + 1; rw [e0]; omega
  | ⟨1, _⟩ => show win1_4.index t 1 * 512 ≤ (i 1).val ∧ (i 1).val < win1_4.index t 1 * 512 + 512; rw [e1]; omega
  | ⟨2, _⟩ => show win1_4.index t 2 * 1024 ≤ (i 2).val ∧ (i 2).val < win1_4.index t 2 * 1024 + 1024; rw [e2]; omega

end Cert.KernelIdeal.Frame

end
-- ==== Proof.Tiles.lean ====
/-
  Sums over the tiles of a batch.

  The sequence axis of a batch, 4096 rows, is visited in 8 tiles of 512 rows. An accumulator is restarted at the
  first tile of every batch and otherwise adds the current tile's contribution to what it held. So at tile n it
  holds the contributions of the tiles from the start of n's batch, n − n mod 8, up to n; at the last tile of
  batch b it holds all eight. And a sum over the 8 tiles of a sum over a tile's 512 rows is the sum over the
  4096 rows of the batch, row 512·s + r being row r of tile s.
  Both are statements about finite sums in any commutative additive monoid.
-/
import Mathlib.Algebra.BigOperators.Intervals
import Mathlib.Algebra.BigOperators.Fin
import Mathlib.Logic.Equiv.Fin.Basic
import Mathlib.Order.Interval.Finset.Nat

open scoped BigOperators

namespace Cert.Tiles

/-- The accumulator at tile n: the contributions of the tiles of n's batch up to n. -/
theorem acc_closed {M : Type*} [AddCommMonoid M] (N : ℕ) (acc contrib : ℕ → M)
    (h0 : acc 0 = 0 + contrib 0)
    (hA : ∀ n, n + 1 < N → (n + 1) % 8 = 0 → acc (n + 1) = 0 + contrib (n + 1))
    (hB : ∀ n, n + 1 < N → (n + 1) % 8 ≠ 0 → acc (n + 1) = acc n + contrib (n + 1)) :
    ∀ n, n < N → acc n = ∑ u ∈ Finset.Ico (n - n % 8) (n + 1), contrib u := by
  intro n
  induction n with
  | zero =>
    intro _
    rw [h0, zero_add]
    show contrib 0 = ∑ u ∈ Finset.Ico 0 (0 + 1), contrib u
    rw [Nat.Ico_succ_singleton, Finset.sum_singleton]
  | succ n ih =>
    intro hn
    by_cases hm : (n + 1) % 8 = 0
    · have e : n + 1 - (n + 1) % 8 = n + 1 := by omega
      rw [hA n hn hm, zero_add, e, Nat.Ico_succ_singleton, Finset.sum_singleton]
    · have e : n + 1 - (n + 1) % 8 = n - n % 8 := by omega
      rw [hB n hn hm, ih (by omega), e, Finset.sum_Ico_succ_top (by omega : n - n % 8 ≤ n + 1)]

/-- At the last tile of batch b the accumulator holds the contributions of all eight tiles of the batch. -/
theorem acc_last {M : Type*} [AddCommMonoid M] (N : ℕ) (acc contrib : ℕ → M)
    (h0 : acc 0 = 0 + contrib 0)
    (hA : ∀ n, n + 1 < N → (n + 1) % 8 = 0 → acc (n + 1) = 0 + contrib (n + 1))
    (hB : ∀ n, n + 1 < N → (n + 1) % 8 ≠ 0 → acc (n + 1) = acc n + contrib (n + 1))
    (b : ℕ) (hb : 8 * b + 7 < N) :
    acc (8 * b + 7) = ∑ s : Fin 8, contrib (8 * b + s.val) := by
  have e1 : 8 * b + 7 - (8 * b + 7) % 8 = 8 * b := by omega
  have e2 : 8 * b + 7 + 1 - 8 * b = 8 := by omega
  rw [acc_closed N acc contrib h0 hA hB (8 * b + 7) hb, e1, Finset.sum_Ico_eq_sum_range, e2, Finset.sum_range]

/-- The rows of a batch, tile by tile: row 512·s + r is row r of tile s. -/
theorem sum_tiles {M : Type*} [AddCommMonoid M] (h : Fin 4096 → M) :
    (∑ s : Fin 8, ∑ r : Fin 512, h ⟨512 * s.val + r.val, by have := s.isLt; have := r.isLt; omega⟩)
      = ∑ τ : Fin 4096, h τ := by
  rw [← Equiv.sum_comp (finProdFinEquiv (m := 8) (n := 512)) h, Fintype.sum_prod_type]
  refine Finset.sum_congr rfl fun s _ => Finset.sum_congr rfl fun r _ => congrArg h (Fin.ext ?_)
  show 512 * s.val + r.val = r.val + 512 * s.val
  omega

end Cert.Tiles
-- ==== Proof.Spec.lean ====
/-
  The two ways of writing the block's result, over the extended reals, as functions of the five argument arrays
  x : [4, 4096, 1024] and Wa, Wb, Wc, Wd : [1024, 1024].

  Every branch is a rectified projection: proj x W b s e = max (∑ d, x[b,s,d] · W[e,d]) 0.
  With A, Bm, C the projections by Wa, Wb, Wc:
    * through the Gram matrix:  M[b][e,f] = ∑ t, Bm[b,t,e] · C[b,t,f],   then  ∑ e, A[b,s,e] · M[b][e,f];
    * through the scores:       P[b][s,t] = ∑ e, A[b,s,e] · Bm[b,t,e],   then  ∑ t, P[b][s,t] · C[b,t,f].
  Either is then projected by Wd and rectified. The two agree wherever the inputs are real numbers, by
  distributing the product over the finite sums and exchanging the two summations.
-/
import Idealize.ShloMosaic.PureOps.Ideal
import Idealize.ShloMosaic.Lib.ValueIdx

noncomputable section

open scoped BigOperators

namespace Cert.Spec

open Idealize.ShloMosaic Idealize.ShloMosaic.ValueIdx

/-- The activations' array: batch × sequence × feature. -/
abbrev Act : Type := (⟨3, ![4, 4096, 1024]⟩ : Shape).Idx → EReal
/-- A weight matrix: output feature × input feature. -/
abbrev Wgt : Type := (⟨2, ![1024, 1024]⟩ : Shape).Idx → EReal

/-- Row `(b, s)` of `x` projected on row `e` of `w`, rectified. -/
def proj (x : Act) (w : Wgt) (b : Fin 4) (s : Fin 4096) (e : Fin 1024) : EReal :=
  max (∑ d : Fin 1024, x (ix3 b s d) * w (ix2 e d)) 0

/-- The Gram matrix of the two middle branches over the whole sequence of batch `b`. -/
def gram (x : Act) (wb wc : Wgt) (b : Fin 4) (e f : Fin 1024) : EReal :=
  ∑ t : Fin 4096, proj x wb b t e * proj x wc b t f

/-- The first branch applied to the Gram matrix. -/
def mixGram (x : Act) (wa wb wc : Wgt) (b : Fin 4) (s : Fin 4096) (f : Fin 1024) : EReal :=
  ∑ e : Fin 1024, proj x wa b s e * gram x wb wc b e f

/-- The result computed through the Gram matrix, at coordinates. -/
def viaGram (x : Act) (wa wb wc wd : Wgt) (b : Fin 4) (s : Fin 4096) (g : Fin 1024) : EReal :=
  max (∑ f : Fin 1024, mixGram x wa wb wc b s f * wd (ix2 g f)) 0

/-- The unnormalised scores of batch `b`. -/
def score (x : Act) (wa wb : Wgt) (b : Fin 4) (s t : Fin 4096) : EReal :=
  ∑ e : Fin 1024, proj x wa b s e * proj x wb b t e

/-- The scores applied to the third branch. -/
def mixScore (x : Act) (wa wb wc : Wgt) (b : Fin 4) (s : Fin 4096) (f : Fin 1024) : EReal :=
  ∑ t : Fin 4096, score x wa wb b s t * proj x wc b t f

/-- The result computed through the scores, at coordinates. -/
def viaScores (x : Act) (wa wb wc wd : Wgt) (b : Fin 4) (s : Fin 4096) (g : Fin 1024) : EReal :=
  max (∑ f : Fin 1024, mixScore x wa wb wc b s f * wd (ix2 g f)) 0

end Cert.Spec

end
-- ==== Proof.KernelIdeal.GramValue.lean ====
/-
  The first call's result at the ideal values. Entry (e, f) of the accumulator after a point is the sum, over the
  sequence tiles of the point's batch up to that point, of the tile's contribution
      ∑ r, max (∑ d, x[b, row r, d] · Wbᵀ[d, e]) 0 · max (∑ d, x[b, row r, d] · Wcᵀ[d, f]) 0
  (the zero matrix a batch starts from adds nothing). After a batch's last tile that is the sum over all eight tiles,
  that is over all 4096 rows of the batch: the batch's Gram matrix of the two rectified projections. That point's
  write-back puts it in block b of the result array, and those eight-th points' blocks cover the array.
-/
import proofs.«157593_j45191645889033_2_alg».proof.Proof.KernelIdeal.Accum
import proofs.«157593_j45191645889033_2_alg».proof.Proof.KernelIdeal.BlockReads
import proofs.«157593_j45191645889033_2_alg».proof.Proof.Payloads
import proofs.«157593_j45191645889033_2_alg».proof.Proof.Tiles
import proofs.«157593_j45191645889033_2_alg».proof.Proof.Spec

noncomputable section

open scoped BigOperators

namespace Cert.KernelIdeal.Frame

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payloads

variable (V : (c : Dev nD) → (b : Ref sig .tc) → Buf (Elt Ideal) ((c : Thread nD τ).loc b))

attribute [local irreducible] outsAt0

/-- A tile's contribution to entry (e, f): over the tile's rows, the product of its two rectified projections. -/
def contribOf (v3 : Vec Ideal S1x512x1024 .f32) (v6 v8 : Vec Ideal S1024x1024 .bf16) (e f : Fin 1024) : EReal :=
  ∑ r : Fin 512, max (∑ d : Fin 1024, v3 (ix3 0 r d) * v6 (ix2 d e)) 0 * max (∑ d : Fin 1024, v3 (ix3 0 r d) * v8 (ix2 d f)) 0

/-- The body's accumulation at an entry: what was there plus the tile's contribution. -/
theorem pay2_contrib (v3 : Vec Ideal S1x512x1024 .f32) (v6 v8 : Vec Ideal S1024x1024 .bf16) (v19 : Vec Ideal S1024x1024 .f32) (e f : Fin 1024) :
    k0_pay2 (F := Ideal) v3 v6 v8 v19 (ix2 e f) = v19 (ix2 e f) + contribOf v3 v6 v8 e f :=
  pay2_apply v3 v6 v8 v19 e f

/-- The contribution of the tile at position `n` to entry (e, f), over the point's blocks. -/
def contribAt (c : Dev nD) (e f : Fin 1024) (n : ℕ) : EReal :=
  if h : n < cfg0.N then contribOf (iblk0 V c 0 ⟨n, h⟩) (iblk0 V c 1 ⟨n, h⟩) (iblk0 V c 2 ⟨n, h⟩) e f else 0

/-- Entry (e, f) of the accumulator after position `n`. -/
def accN (c : Dev nD) (e f : Fin 1024) (n : ℕ) : EReal :=
  if h : n < cfg0.N then accAt V c n h (ix2 e f) else 0

theorem cfg0_N : cfg0.N = 32 := N_0

/-- After a batch's last tile the accumulator's entry is the sum of the eight tiles' contributions. -/
theorem acc_last_tile (c : Dev nD) (e f : Fin 1024) (b : ℕ) (hb : 8 * b + 7 < cfg0.N) :
    accAt V c (8 * b + 7) hb (ix2 e f) = ∑ s : Fin 8, contribAt V c e f (8 * b + s.val) := by
  have h0 : accN V c e f 0 = 0 + contribAt V c e f 0 := by
    have h : 0 < cfg0.N := by rw [cfg0_N]; decide
    simp only [accN, contribAt, dif_pos h]
    rw [accAt_zero, pay2_contrib, pay1_apply]
  have hA : ∀ n, n + 1 < cfg0.N → (n + 1) % 8 = 0 → accN V c e f (n + 1) = 0 + contribAt V c e f (n + 1) := by
    intro n h h8
    simp only [accN, contribAt, dif_pos h]
    rw [accAt_first V c n h h8, pay2_contrib, pay1_apply]
  have hB : ∀ n, n + 1 < cfg0.N → (n + 1) % 8 ≠ 0 → accN V c e f (n + 1) = accN V c e f n + contribAt V c e f (n + 1) := by
    intro n h h8
    have h' : n < cfg0.N := Nat.lt_of_succ_lt h
    simp only [accN, contribAt, dif_pos h, dif_pos h']
    rw [accAt_later V c n h h8, pay2_contrib]
  have key := Cert.Tiles.acc_last cfg0.N (accN V c e f) (contribAt V c e f) h0 hA hB b hb
  simpa only [accN, dif_pos hb] using key

/-- The accumulator does not depend on how its position is written. -/
theorem accAt_congr (c : Dev nD) (n n' : ℕ) (h : n < cfg0.N) (h' : n' < cfg0.N) (e : n = n') : accAt V c n h = accAt V c n' h' := by
  subst e; rfl

/-- After a batch's last tile the accumulator is the batch's Gram matrix. -/
theorem acc_gram (c : Dev nD) (x : Cert.Spec.Act) (wb wc : Cert.Spec.Wgt)
    (hx : V c main_arg0 = x) (hwb : ∀ d e : Fin 1024, V c main_v3 (ix2 d e) = wb (ix2 e d))
    (hwc : ∀ d f : Fin 1024, V c main_v5 (ix2 d f) = wc (ix2 f d))
    (t : Fin cfg0.N) (h7 : t.val % 8 = 7) (e f : Fin 1024) :
    accAt V c t.val t.isLt (ix2 e f) = Cert.Spec.gram x wb wc (batch0 t) e f := by
  have hN : t.val < 32 := lt_of_lt_of_eq t.isLt cfg0_N
  obtain ⟨b, hb⟩ : ∃ b, t.val = 8 * b + 7 := ⟨t.val / 8, by omega⟩
  have hlt : 8 * b + 7 < cfg0.N := hb ▸ t.isLt
  rw [accAt_congr V c t.val (8 * b + 7) t.isLt hlt hb, acc_last_tile V c e f b hlt]
  unfold Cert.Spec.gram
  refine Eq.trans ?_ (Cert.Tiles.sum_tiles (fun τ => Cert.Spec.proj x wb (batch0 t) τ e * Cert.Spec.proj x wc (batch0 t) τ f))
  refine Finset.sum_congr rfl fun s _ => ?_
  have hs8 : s.val < 8 := s.isLt
  have hs : 8 * b + s.val < cfg0.N := by rw [cfg0_N]; omega
  unfold contribAt
  rw [dif_pos hs]
  unfold contribOf
  refine Finset.sum_congr rfl fun r _ => ?_
  have hb0 : batch0 ⟨8 * b + s.val, hs⟩ = batch0 t := Fin.ext (by show (8 * b + s.val) / 8 = t.val / 8; omega)
  have hr0 : row0 ⟨8 * b + s.val, hs⟩ r = ⟨512 * s.val + r.val, by have := r.isLt; omega⟩ :=
    Fin.ext (by show 512 * ((8 * b + s.val) % 8) + r.val = 512 * s.val + r.val; omega)
  have hX : ∀ d : Fin 1024, (iblk0 V c 0 ⟨8 * b + s.val, hs⟩ : Vec Ideal S1x512x1024 .f32) (ix3 0 r d)
      = x (ix3 (batch0 t) ⟨512 * s.val + r.val, by have := r.isLt; omega⟩ d) := by
    intro d
    unfold iblk0
    rw [read_tile0, hb0, hr0]
    exact congrFun hx _
  have hW1 : ∀ d : Fin 1024, (iblk0 V c 1 ⟨8 * b + s.val, hs⟩ : Vec Ideal S1024x1024 .bf16) (ix2 d e) = wb (ix2 e d) := by
    intro d
    unfold iblk0
    rw [read_whole0_1]
    exact hwb d e
  have hW2 : ∀ d : Fin 1024, (iblk0 V c 2 ⟨8 * b + s.val, hs⟩ : Vec Ideal S1024x1024 .bf16) (ix2 d f) = wc (ix2 f d) := by
    intro d
    unfold iblk0
    rw [read_whole0_2]
    exact hwc d f
  unfold Cert.Spec.proj
  simp only [hX, hW1, hW2]

/-- The result array of the first call ends holding every batch's Gram matrix. -/
theorem gram_value (c : Dev nD) (x : Cert.Spec.Act) (wb wc : Cert.Spec.Wgt)
    (hx : V c main_arg0 = x) (hwb : ∀ d e : Fin 1024, V c main_v3 (ix2 d e) = wb (ix2 e d))
    (hwc : ∀ d f : Fin 1024, V c main_v5 (ix2 d f) = wc (ix2 f d)) :
    (dat0 V c).arrAt 3 cfg0.N = fun i => Cert.Spec.gram x wb wc (i 0) (i 1) (i 2) := by
  refine (dat0 V c).arrAt_eq_of_cover 3 (fun i => Cert.Spec.gram x wb wc (i 0) (i 1) (i 2)) (fun t hf => ?_) cover_gram0
  have h7 : t.val % 8 = 7 := (flush0_3 t).mp hf
  funext y
  obtain ⟨p, q, rfl⟩ : ∃ (p q : Fin 1024), y = ix3 (0 : Fin 1) p q := ⟨y 1, y 2, eq_ix3_unit y⟩
  show (cfg0.win 3).cut (grid0.coords t) ((dat0 V c).after 3 t) (ix3 (0 : Fin 1) p q) = _
  rw [after0_3, out_last V c t.val t.isLt h7, read_gram0]
  show k0_pay3 (accAt V c t.val t.isLt) (ix3 (0 : Fin 1) p q) = Cert.Spec.gram x wb wc (batch0 t) p q
  rw [pay3_apply]
  exact acc_gram V c x wb wc hx hwb hwc t h7 p q

end Cert.KernelIdeal.Frame

end
-- ==== Proof.KernelIdeal.OutValue.lean ====
/-
  The second call's output array, over the extended reals.

  At point t the second call stores, into the output's tile of batch t / 8, the value its arithmetic gives from the
  four blocks it was handed: the activations' tile, the first weight matrix held transposed, the batch's 1024 × 1024
  matrix, and the last weight matrix held transposed. Read at coordinates, entry (0, r, g) of the stored tile is
      max (∑ f, (∑ e, A[r, e] · M[e, f]) · Wd[g, f]) 0,    A[r, e] = max (∑ d, x[b, s, d] · Wa[e, d]) 0,
  with b the point's batch and s row r of its tile, and that is the entry at (b, s, g) of one function of the whole
  arrays. Every point writes its tile back and the tiles cover the output array, so the array ends at that function.
-/
import proofs.«157593_j45191645889033_2_alg».proof.Proof.KernelIdeal.Pieces
import proofs.«157593_j45191645889033_2_alg».proof.Proof.KernelIdeal.BlockReads
import proofs.«157593_j45191645889033_2_alg».proof.Proof.Payloads
import proofs.«157593_j45191645889033_2_alg».proof.Proof.Spec

set_option maxRecDepth 16384

noncomputable section

open scoped BigOperators

namespace Cert.KernelIdeal.Frame

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The second call's input blocks at coordinates, for any float values -/

section
variable {F : FTy → Type} [FloatOps F]
variable (V : (c : Dev nD) → (b : Ref sig .tc) → Buf (Elt F) ((c : Thread nD τ).loc b))

theorem iblk1_0_apply (c : Dev nD) (t : Fin cfg1.N) (r : Fin 512) (d : Fin 1024) :
    iblk1 V c 0 t (ix3 (0 : Fin 1) r d) = (V c main_arg0 : S4x4096x1024.Idx → Elt F .f32) (ix3 (batch1 t) (row1 t r) d) :=
  read_tile1 (V c main_arg0) t r d
theorem iblk1_1_apply (c : Dev nD) (t : Fin cfg1.N) (d e : Fin 1024) :
    iblk1 V c 1 t (ix2 d e) = (V c main_v1 : S1024x1024.Idx → Elt F .bf16) (ix2 d e) :=
  read_whole1_1 (V c main_v1) t d e
theorem iblk1_2_apply (c : Dev nD) (t : Fin cfg1.N) (e f : Fin 1024) :
    iblk1 V c 2 t (ix3 (0 : Fin 1) e f) = (V c main_v8 : S4x1024x1024.Idx → Elt F .bf16) (ix3 (batch1 t) e f) :=
  read_gram1 (V c main_v8) t e f
theorem iblk1_3_apply (c : Dev nD) (t : Fin cfg1.N) (f g : Fin 1024) :
    iblk1 V c 3 t (ix2 f g) = (V c main_v7 : S1024x1024.Idx → Elt F .bf16) (ix2 f g) :=
  read_whole1_3 (V c main_v7) t f g

end

/-! ## The output array -/

section
variable (V : (c : Dev nD) → (b : Ref sig .tc) → Buf (Elt Ideal) ((c : Thread nD τ).loc b))

/-- The output as one function of the arrays the call finds: the activations x, the first and last weight matrices
    wa, wd, and the per-batch matrices as held in their array. -/
def outFn (c : Dev nD) (x : Cert.Spec.Act) (wa wd : Cert.Spec.Wgt) : S4x4096x1024.Idx → EReal := fun i =>
  max (∑ f : Fin 1024, (∑ e : Fin 1024, Cert.Spec.proj x wa (i 0) (i 1) e
    * (V c main_v8 : S4x1024x1024.Idx → EReal) (ix3 (i 0) e f)) * wd (ix2 (i 2) f)) 0

/-- What point t writes back is its tile of that function. -/
theorem flushed1_4_eq (c : Dev nD) (x : Cert.Spec.Act) (wa wd : Cert.Spec.Wgt)
    (hx : (V c main_arg0 : S4x4096x1024.Idx → EReal) = x)
    (hwa : ∀ d e : Fin 1024, (V c main_v1 : S1024x1024.Idx → EReal) (ix2 d e) = wa (ix2 e d))
    (hwd : ∀ f g : Fin 1024, (V c main_v7 : S1024x1024.Idx → EReal) (ix2 f g) = wd (ix2 g f))
    (t : Fin cfg1.N) :
    (dat1 V c).flushed 4 t = ((cfg1.win 4).blk t).view.read (Elt Ideal) (outFn V c x wa wd) := by
  show (cfg1.win 4).cut (grid1.coords t) ((dat1 V c).after 4 t) = _
  rw [after1_4, out1_4_eq]
  funext y
  obtain ⟨p, q, rfl⟩ : ∃ (p : Fin 512) (q : Fin 1024), y = ix3 (0 : Fin 1) p q := ⟨y 1, y 2, eq_ix3_unit y⟩
  show k1_pay1 (F := Ideal) (iblk1 V c 0 t) (iblk1 V c 1 t) (iblk1 V c 2 t) (iblk1 V c 3 t) (ix3 (0 : Fin 1) p q) = _
  refine (Cert.KernelIdeal.Payloads.out_apply (iblk1 V c 0 t) (iblk1 V c 1 t) (iblk1 V c 2 t) (iblk1 V c 3 t) p q).trans ?_
  refine Eq.trans ?_ (read_out1 (F := Ideal) (outFn V c x wa wd) t p q).symm
  show _ = max (∑ f : Fin 1024, (∑ e : Fin 1024, Cert.Spec.proj x wa (batch1 t) (row1 t p) e
    * (V c main_v8 : S4x1024x1024.Idx → EReal) (ix3 (batch1 t) e f)) * wd (ix2 q f)) 0
  refine congrArg (fun s => max s 0) (Finset.sum_congr rfl fun f _ => ?_)
  refine congrArg₂ (· * ·) (Finset.sum_congr rfl fun e _ => ?_) ((iblk1_3_apply V c t f q).trans (hwd f q))
  refine congrArg₂ (· * ·) ?_ (iblk1_2_apply V c t e f)
  unfold Cert.Spec.proj
  refine congrArg (fun s => max s 0) (Finset.sum_congr rfl fun d _ => ?_)
  exact congrArg₂ (· * ·) ((iblk1_0_apply V c t p d).trans (congrFun hx _)) ((iblk1_1_apply V c t d e).trans (hwa d e))

/-- The output array after the second call. -/
theorem out_value (c : Dev nD) (x : Cert.Spec.Act) (wa wd : Cert.Spec.Wgt)
    (hx : (V c main_arg0 : S4x4096x1024.Idx → EReal) = x)
    (hwa : ∀ d e : Fin 1024, (V c main_v1 : S1024x1024.Idx → EReal) (ix2 d e) = wa (ix2 e d))
    (hwd : ∀ f g : Fin 1024, (V c main_v7 : S1024x1024.Idx → EReal) (ix2 f g) = wd (ix2 g f)) :
    (dat1 V c).arrAt 4 cfg1.N = fun i => max (∑ f : Fin 1024, (∑ e : Fin 1024, Cert.Spec.proj x wa (i 0) (i 1) e
      * (V c main_v8 : S4x1024x1024.Idx → EReal) (ix3 (i 0) e f)) * wd (ix2 (i 2) f)) 0 :=
  (dat1 V c).arrAt_eq_of_cover 4 (outFn V c x wa wd) (fun t _ => flushed1_4_eq V c x wa wd hx hwa hwd t) cover_out1

end

end Cert.KernelIdeal.Frame

end
-- ==== Proof.KernelIdeal.Value.lean ====
/-
  The kernel's result at the ideal values, as one function of the five arguments. The second call's result array is,
  entry by entry, the first rectified projection of the row times the batch's matrix as the call finds it, projected
  by the last weight and rectified; the matrix it finds is what the first call's write-backs left, the batch's Gram
  matrix of the two middle projections; the weights each call finds are the arguments transposed. Put together this
  is the result computed through the Gram matrix.
-/
import proofs.«157593_j45191645889033_2_alg».proof.Proof.KernelIdeal.HostStage
import proofs.«157593_j45191645889033_2_alg».proof.Proof.KernelIdeal.GramValue
import proofs.«157593_j45191645889033_2_alg».proof.Proof.KernelIdeal.OutValue

noncomputable section

open scoped BigOperators

namespace Cert.KernelIdeal.Frame

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The first call leaves in its result array every batch's Gram matrix of the two middle projections. -/
theorem gram_found (c : Dev nD) :
    (Vb2 m c main_v8 : S4x1024x1024.Idx → EReal)
      = fun i => Cert.Spec.gram (m ((c : Thread nD τ).loc main_arg0)) (m ((c : Thread nD τ).loc main_arg2)) (m ((c : Thread nD τ).loc main_arg3)) (i 0) (i 1) (i 2) :=
  (B2_arr m c 3).trans (gram_value (Vb1 m) c (m ((c : Thread nD τ).loc main_arg0)) (m ((c : Thread nD τ).loc main_arg2)) (m ((c : Thread nD τ).loc main_arg3))
    (stage_arg0 m c) (stage_v3 m c) (stage_v5 m c))

/-- What the second call finds in the buffers the first call does not write is what the first call found. -/
theorem found_arg0 (c : Dev nD) : (Vb2 m c main_arg0 : S4x4096x1024.Idx → EReal) = (m ((c : Thread nD τ).loc main_arg0)) :=
  ((B2_arr m c 0).trans (((dat0 (Vb1 m) c).arrAt_in 0 rfl _).trans (A_eq0 (Vb1 m) c 0))).trans (stage_arg0 m c)
theorem found_v1 (c : Dev nD) (d e : Fin 1024) : (Vb2 m c main_v1 : S1024x1024.Idx → EReal) (ix2 d e) = (m ((c : Thread nD τ).loc main_arg1)) (ix2 e d) :=
  (congrFun (B2_of_ne m c main_v1 (by decide)) _).trans (stage_v1 m c d e)
theorem found_v7 (c : Dev nD) (f g : Fin 1024) : (Vb2 m c main_v7 : S1024x1024.Idx → EReal) (ix2 f g) = (m ((c : Thread nD τ).loc main_arg4)) (ix2 g f) :=
  (congrFun (B2_of_ne m c main_v7 (by decide)) _).trans (stage_v7 m c f g)

/-- The result array ends at the result computed through the Gram matrix, of the five arguments. -/
theorem result_value (c : Dev nD) :
    (B3 m c (Proc.devRef .tc main_v9) : S4x4096x1024.Idx → EReal)
      = fun i => Cert.Spec.viaGram (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) := by
  rw [result_eq m c, out_value (Vb2 m) c (m ((c : Thread nD τ).loc main_arg0)) (m ((c : Thread nD τ).loc main_arg1)) (m ((c : Thread nD τ).loc main_arg4)) (found_arg0 m c) (found_v1 m c) (found_v7 m c)]
  funext i
  unfold Cert.Spec.viaGram Cert.Spec.mixGram
  rw [gram_found m c]
  rfl

end Cert.KernelIdeal.Frame

end
-- ==== Proof.RefValue.lean ====
/-
  The reference's result, read back index by index.

  The reference projects the activations by Wa, Wb, Wc and rectifies each (the branches A, Bm, C), forms the
  scores P[b][s,t] = ∑ e, A[b,s,e] · Bm[b,t,e] by a batched product contracting the feature axis, applies them
  to the third branch, ∑ t, P[b][s,t] · C[b,t,f], projects by Wd and rectifies. Over the extended reals each
  product is a finite sum over the contracted axis of left entry times right entry, and the rectification is the
  maximum with the zero word's value, 0. Entry (b, s, g) of the result is therefore the specification's
  `viaScores` at (b, s, g): each stage is read at coordinates and the operand indices of each product are
  identified with the indices built from coordinates.
-/
import proofs.«157593_j45191645889033_2_alg».proof.Defs
import proofs.«157593_j45191645889033_2_alg».proof.Proof.Gen.ReferenceIdeal.Run
import proofs.«157593_j45191645889033_2_alg».proof.Proof.Gen.ReferenceIdeal.Read
import proofs.«157593_j45191645889033_2_alg».proof.Proof.Gen.Pre_finite_inputs
import proofs.«157593_j45191645889033_2_alg».proof.Proof.Spec

noncomputable section

open scoped BigOperators

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The contents of the activations' buffer and of a weight buffer, over the extended reals. -/
abbrev ActC : Type := FVec Ideal S4x4096x1024 .f32
abbrev WgtC : Type := FVec Ideal S1024x1024 .f32

/-! ## The operand indices of each product, at coordinates

  A projection's entry (b, s, e) reads row (b, s) of the activations and row e of the weights along k;
  a score's entry (b, s, t) reads rows (b, s) and (b, t) of the two branches along k;
  the mixed entry (b, s, f) reads row (b, s) of the scores and column f of batch b of the third branch along k. -/

theorem lidx_v0 (b : Fin 4) (s : Fin 4096) (e k : Fin 1024) : lidx_main_v0 (ix3 b s e) k = ix3 b s k :=
  funext fun a => Fin.ext (by match a with | ⟨0, _⟩ => rfl | ⟨1, _⟩ => rfl | ⟨2, _⟩ => rfl)
theorem ridx_v0 (b : Fin 4) (s : Fin 4096) (e k : Fin 1024) : ridx_main_v0 (ix3 b s e) k = ix2 e k :=
  funext fun a => Fin.ext (by match a with | ⟨0, _⟩ => rfl | ⟨1, _⟩ => rfl)
theorem lidx_v2 (b : Fin 4) (s : Fin 4096) (e k : Fin 1024) : lidx_main_v2 (ix3 b s e) k = ix3 b s k :=
  funext fun a => Fin.ext (by match a with | ⟨0, _⟩ => rfl | ⟨1, _⟩ => rfl | ⟨2, _⟩ => rfl)
theorem ridx_v2 (b : Fin 4) (s : Fin 4096) (e k : Fin 1024) : ridx_main_v2 (ix3 b s e) k = ix2 e k :=
  funext fun a => Fin.ext (by match a with | ⟨0, _⟩ => rfl | ⟨1, _⟩ => rfl)
theorem lidx_v4 (b : Fin 4) (s : Fin 4096) (e k : Fin 1024) : lidx_main_v4 (ix3 b s e) k = ix3 b s k :=
  funext fun a => Fin.ext (by match a with | ⟨0, _⟩ => rfl | ⟨1, _⟩ => rfl | ⟨2, _⟩ => rfl)
theorem ridx_v4 (b : Fin 4) (s : Fin 4096) (e k : Fin 1024) : ridx_main_v4 (ix3 b s e) k = ix2 e k :=
  funext fun a => Fin.ext (by match a with | ⟨0, _⟩ => rfl | ⟨1, _⟩ => rfl)
theorem lidx_v6 (b : Fin 4) (s t : Fin 4096) (k : Fin 1024) : lidx_main_v6 (ix3 b s t) k = ix3 b s k :=
  funext fun a => Fin.ext (by match a with | ⟨0, _⟩ => rfl | ⟨1, _⟩ => rfl | ⟨2, _⟩ => rfl)
theorem ridx_v6 (b : Fin 4) (s t : Fin 4096) (k : Fin 1024) : ridx_main_v6 (ix3 b s t) k = ix3 b t k :=
  funext fun a => Fin.ext (by match a with | ⟨0, _⟩ => rfl | ⟨1, _⟩ => rfl | ⟨2, _⟩ => rfl)
theorem lidx_v7 (b : Fin 4) (s : Fin 4096) (f : Fin 1024) (k : Fin 4096) : lidx_main_v7 (ix3 b s f) k = ix3 b s k :=
  funext fun a => Fin.ext (by match a with | ⟨0, _⟩ => rfl | ⟨1, _⟩ => rfl | ⟨2, _⟩ => rfl)
theorem ridx_v7 (b : Fin 4) (s : Fin 4096) (f : Fin 1024) (k : Fin 4096) : ridx_main_v7 (ix3 b s f) k = ix3 b k f :=
  funext fun a => Fin.ext (by match a with | ⟨0, _⟩ => rfl | ⟨1, _⟩ => rfl | ⟨2, _⟩ => rfl)
theorem lidx_v8 (b : Fin 4) (s : Fin 4096) (g k : Fin 1024) : lidx_main_v8 (ix3 b s g) k = ix3 b s k :=
  funext fun a => Fin.ext (by match a with | ⟨0, _⟩ => rfl | ⟨1, _⟩ => rfl | ⟨2, _⟩ => rfl)
theorem ridx_v8 (b : Fin 4) (s : Fin 4096) (g k : Fin 1024) : ridx_main_v8 (ix3 b s g) k = ix2 g k :=
  funext fun a => Fin.ext (by match a with | ⟨0, _⟩ => rfl | ⟨1, _⟩ => rfl)

/-! ## The rectification's second operand is zero everywhere

  Each rectification is the maximum with a broadcast scalar whose word is the zero word. -/

theorem zero_call0 (i : S4x4096x1024.Idx) : val_main_call0_v0 (F := Ideal) i = 0 := by
  rw [val_main_call0_v0_apply, val_main_call0_cst_apply]; exact Ideal.ofBits_zero_f32
theorem zero_call1 (i : S4x4096x1024.Idx) : val_main_call1_v0 (F := Ideal) i = 0 := by
  rw [val_main_call1_v0_apply, val_main_call1_cst_apply]; exact Ideal.ofBits_zero_f32
theorem zero_call2 (i : S4x4096x1024.Idx) : val_main_call2_v0 (F := Ideal) i = 0 := by
  rw [val_main_call2_v0_apply, val_main_call2_cst_apply]; exact Ideal.ofBits_zero_f32
theorem zero_call3 (i : S4x4096x1024.Idx) : val_main_call3_v0 (F := Ideal) i = 0 := by
  rw [val_main_call3_v0_apply, val_main_call3_cst_apply]; exact Ideal.ofBits_zero_f32

/-! ## The stages at coordinates -/

/-- The first branch: the activations projected by the first weight matrix, rectified. -/
theorem branchA_at (x : ActC) (w : WgtC) (b : Fin 4) (s : Fin 4096) (e : Fin 1024) :
    val_main_v1 (F := Ideal) x w (ix3 b s e) = Cert.Spec.proj x w b s e := by
  rw [val_main_v1_apply, val_main_v0_apply, zero_call0, Ideal.maximumf_def]
  simp only [lidx_v0, ridx_v0]
  rfl

/-- The second branch. -/
theorem branchB_at (x : ActC) (w : WgtC) (b : Fin 4) (s : Fin 4096) (e : Fin 1024) :
    val_main_v3 (F := Ideal) x w (ix3 b s e) = Cert.Spec.proj x w b s e := by
  rw [val_main_v3_apply, val_main_v2_apply, zero_call1, Ideal.maximumf_def]
  simp only [lidx_v2, ridx_v2]
  rfl

/-- The third branch. -/
theorem branchC_at (x : ActC) (w : WgtC) (b : Fin 4) (s : Fin 4096) (e : Fin 1024) :
    val_main_v5 (F := Ideal) x w (ix3 b s e) = Cert.Spec.proj x w b s e := by
  rw [val_main_v5_apply, val_main_v4_apply, zero_call2, Ideal.maximumf_def]
  simp only [lidx_v4, ridx_v4]
  rfl

/-- The scores: rows (b, s) of the first branch against rows (b, t) of the second. -/
theorem score_at (x : ActC) (wa wb : WgtC) (b : Fin 4) (s t : Fin 4096) :
    val_main_v6 (F := Ideal) x wa wb (ix3 b s t) = Cert.Spec.score x wa wb b s t := by
  rw [val_main_v6_apply]
  simp only [lidx_v6, ridx_v6, branchA_at, branchB_at]
  rfl

/-- The scores applied to the third branch. -/
theorem mixScore_at (x : ActC) (wa wb wc : WgtC) (b : Fin 4) (s : Fin 4096) (f : Fin 1024) :
    val_main_v7 (F := Ideal) x wa wb wc (ix3 b s f) = Cert.Spec.mixScore x wa wb wc b s f := by
  rw [val_main_v7_apply]
  simp only [lidx_v7, ridx_v7, score_at, branchC_at]
  rfl

/-- The last projection, rectified: the result at coordinates. -/
theorem result_at (x : ActC) (wa wb wc wd : WgtC) (b : Fin 4) (s : Fin 4096) (g : Fin 1024) :
    val_main_v9 (F := Ideal) x wa wb wc wd (ix3 b s g) = Cert.Spec.viaScores x wa wb wc wd b s g := by
  rw [val_main_v9_apply, val_main_v8_apply, zero_call3, Ideal.maximumf_def]
  simp only [lidx_v8, ridx_v8, mixScore_at]
  rfl

/-- The reference's last stage is the specification's result through the scores, as one function of the five
    argument arrays. -/
theorem stage_eq (x : ActC) (wa wb wc wd : WgtC) :
    val_main_v9 (F := Ideal) x wa wb wc wd = fun i => Cert.Spec.viaScores x wa wb wc wd (i 0) (i 1) (i 2) := by
  funext i
  obtain ⟨b, s, g, rfl⟩ : ∃ (b : Fin 4) (s : Fin 4096) (g : Fin 1024), i = ix3 b s g := ⟨i 0, i 1, i 2, eq_ix3 i⟩
  exact result_at x wa wb wc wd b s g

/-- The term the reference's run states for its result is that function. -/
theorem result_eq (a0 : ActC) (a1 a2 a3 a4 : WgtC) :
    maximumf (F := Ideal) (Host.dotGeneral dot_S4x4096x1024_S1024x1024_S4x4096x1024_2_1_01_0_n_n none (Host.dotGeneral dot_S4x4096x4096_S4x4096x1024_S4x4096x1024_2_1_1_2_0_0 none (Host.dotGeneral dot_S4x4096x1024_S4x4096x1024_S4x4096x4096_2_2_1_1_0_0 none (maximumf (Host.dotGeneral dot_S4x4096x1024_S1024x1024_S4x4096x1024_2_1_01_0_n_n none a0 a1) (broadcastInDim S4x4096x1024 ![] bcast_S_S4x4096x1024 (constant S_ .f32 0x00000000#32))) (maximumf (Host.dotGeneral dot_S4x4096x1024_S1024x1024_S4x4096x1024_2_1_01_0_n_n none a0 a2) (broadcastInDim S4x4096x1024 ![] bcast_S_S4x4096x1024 (constant S_ .f32 0x00000000#32)))) (maximumf (Host.dotGeneral dot_S4x4096x1024_S1024x1024_S4x4096x1024_2_1_01_0_n_n none a0 a3) (broadcastInDim S4x4096x1024 ![] bcast_S_S4x4096x1024 (constant S_ .f32 0x00000000#32)))) a4) (broadcastInDim S4x4096x1024 ![] bcast_S_S4x4096x1024 (constant S_ .f32 0x00000000#32))
      = fun (i : S4x4096x1024.Idx) => Cert.Spec.viaScores a0 a1 a2 a3 a4 (i 0) (i 1) (i 2) :=
  (val_main_v9_eq (F := Ideal) a0 a1 a2 a3 a4).trans (stage_eq a0 a1 a2 a3 a4)

/-- The reference runs to the end on every device, leaves its result at the specification's function of the
    argument arrays as the run found them, and leaves the arguments unchanged. -/
theorem run (m' : (ℓ : Loc nD τ sig) → Buf (Elt Ideal) ℓ) (ρ' : Dev nD → PrngReg) :
    θ_run Cert.ReferenceIdeal.defs (onTc (τ := Cert.ReferenceIdeal.τ) (Cert.ReferenceIdeal.main (F := Ideal))) ⟨m', fun _ => 0, ρ'⟩ (fun r => ∀ c : Dev nD,
      r.2.mem ((c.tc : Thread nD τ).loc main_v9) = (fun i => Cert.Spec.viaScores (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (i 0) (i 1) (i 2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run Cert.ReferenceIdeal.defs _ _).mono (fun _ h c => ⟨(h c).1.trans (result_eq _ _ _ _ _), (h c).2⟩)
    (Cert.ReferenceIdeal.Value.run (F := Ideal) m' ρ')

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.Finite.lean ====
/-
  Finiteness of the inputs.

  The precondition is the conjunction, over the five argument arrays, of "every entry's absolute value is
  below the value of the word 0x7F800000", each conjunct a reduction by "and" over the whole array. That word
  denotes +∞. An extended real x with max x (−x) < +∞ is neither +∞ nor −∞ (for either, the maximum is +∞),
  so it is a real number. Hence, under the precondition, every entry of every argument array is a real number:
  the hypothesis the reassociation of the products needs.
-/
import proofs.«157593_j45191645889033_2_alg».proof.Defs
import proofs.«157593_j45191645889033_2_alg».proof.Proof.Gen.Pre_finite_inputs
import Idealize.ShloMosaic.Lib.ReduceAll
import Idealize.ShloMosaic.Lib.ValueIdx

noncomputable section

namespace Cert.Finite

open Idealize.ShloMosaic Idealize.SL.Sem Cert.Pre_finite_inputs

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The strict comparison, when it answers 1, is the order's. -/
theorem lt_of_cmp_olt (x y : EReal) (h : Ideal.cmp .olt x y = 1#1) : x < y := by
  by_contra hn
  simp [Ideal.cmp, hn] at h

/-- One entry: where the comparison of |a| against the broadcast infinity word answers 1, the entry is real. -/
theorem real_of_cmp {S : Shape} (a : FVec Ideal S .f32) (hb : S_.BroadcastsInDim S (![] : Fin 0 → Fin S.rank))
    (i : S.Idx)
    (h : cmpf .olt (Host.absf a) (broadcastInDim S ![] hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  exact real_of_abs_lt_top _ (lt_of_cmp_olt _ _ h')

/-- Under the precondition every entry of each of the five argument arrays is a real number. -/
theorem reals_of_pre [Cert.Pre_finite_inputs.Facts] (a0 : FVec Ideal S4x4096x1024 .f32) (a1 a2 a3 a4 : FVec Ideal S1024x1024 .f32)
    (hpre : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  haveI : Subsingleton S_.Idx := ⟨fun a b => funext fun d => d.elim0⟩
  have h := congrFun hpre ValueIdx.ix0
  dsimp only [fn, fn_part1, andi] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨fun i => real_of_cmp a0 _ i (Host.reduce_andi_all _ _ _ _ _ h0 i),
    fun i => real_of_cmp a1 _ i (Host.reduce_andi_all _ _ _ _ _ h1 i),
    fun i => real_of_cmp a2 _ i (Host.reduce_andi_all _ _ _ _ _ h2 i),
    fun i => real_of_cmp a3 _ i (Host.reduce_andi_all _ _ _ _ _ h3 i),
    fun i => real_of_cmp a4 _ i (Host.reduce_andi_all _ _ _ _ _ h4 i)⟩

end Cert.Finite

end
-- ==== Proof.Reassoc.lean ====
/-
  The product through the Gram matrix equals the product through the scores wherever the inputs are
  real numbers.

  Fix a batch b, a row s and an output feature f, and write a e = A[b,s,e], β t e = Bm[b,t,e],
  c t = C[b,t,f]. The two arrangements are
      ∑ e, a e · (∑ t, β t e · c t)      and      ∑ t, (∑ e, a e · β t e) · c t.
  Over the extended reals a product does not distribute over a sum in general (∞ − ∞ is at fault), so
  the entries are first shown to be real numbers: a rectified finite sum of products of reals is a real.
  Then both sides are images of real numbers, and in ℝ each is the double sum ∑ e, ∑ t, a e · β t e · c t
  in one of its two orders of summation.
-/
import proofs.«157593_j45191645889033_2_alg».proof.Proof.Spec

noncomputable section

open scoped BigOperators

namespace Cert.Spec

open Idealize.ShloMosaic Idealize.ShloMosaic.ValueIdx

/-- The embedding of the reals into the extended reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals commutes with the maximum with zero. -/
theorem coe_max_zero (r : ℝ) : max (r : EReal) 0 = ((max r 0 : ℝ) : EReal) :=
  (EReal.coe_strictMono.monotone.map_max (a := r) (b := 0)).symm

/-- A rectified projection of real inputs is a real number. -/
theorem proj_real (x : Act) (w : Wgt) (hx : ∀ i, ∃ r : ℝ, x i = (r : EReal))
    (hw : ∀ i, ∃ r : ℝ, w i = (r : EReal)) (b : Fin 4) (s : Fin 4096) (e : Fin 1024) :
    ∃ r : ℝ, proj x w b s e = (r : EReal) := by
  choose xr hxr using hx
  choose wr hwr using hw
  refine ⟨max (∑ d : Fin 1024, xr (ix3 b s d) * wr (ix2 e d)) 0, ?_⟩
  unfold proj
  simp only [hxr, hwr, ← EReal.coe_mul, ← coe_sum_real]
  exact coe_max_zero _

/-- The reassociation over real entries: both sides are the double sum of a e · β t e · c t. -/
theorem sum_mul_sum_reassoc {ι κ : Type*} [Fintype ι] [Fintype κ]
    (a : ι → ℝ) (β : κ → ι → ℝ) (c : κ → ℝ) :
    (∑ e, (a e : EReal) * ∑ t, (β t e : EReal) * (c t : EReal))
      = ∑ t, (∑ e, (a e : EReal) * (β t e : EReal)) * (c t : EReal) := by
  simp only [← EReal.coe_mul, ← coe_sum_real]
  refine congrArg Real.toEReal ?_
  simp only [Finset.mul_sum, Finset.sum_mul, mul_assoc]
  exact Finset.sum_comm

/-- Before the last projection the two arrangements agree entry by entry. -/
theorem mixGram_eq_mixScore (x : Act) (wa wb wc : Wgt)
    (hx : ∀ i, ∃ r : ℝ, x i = (r : EReal)) (ha : ∀ i, ∃ r : ℝ, wa i = (r : EReal))
    (hb : ∀ i, ∃ r : ℝ, wb i = (r : EReal)) (hc : ∀ i, ∃ r : ℝ, wc i = (r : EReal))
    (b : Fin 4) (s : Fin 4096) (f : Fin 1024) :
    mixGram x wa wb wc b s f = mixScore x wa wb wc b s f := by
  have hA := fun e => proj_real x wa hx ha b s e
  have hB := fun t e => proj_real x wb hx hb b t e
  have hC := fun t => proj_real x wc hx hc b t f
  choose A hA using hA
  choose B hB using hB
  choose C hC using hC
  unfold mixGram mixScore gram score
  simp only [hA, hB, hC]
  exact sum_mul_sum_reassoc A B C

/-- The result through the Gram matrix is the result through the scores, for real inputs. The last
    weight matrix needs no hypothesis: it multiplies equal entries. -/
theorem viaGram_eq_viaScores (x : Act) (wa wb wc wd : Wgt)
    (hx : ∀ i, ∃ r : ℝ, x i = (r : EReal)) (ha : ∀ i, ∃ r : ℝ, wa i = (r : EReal))
    (hb : ∀ i, ∃ r : ℝ, wb i = (r : EReal)) (hc : ∀ i, ∃ r : ℝ, wc i = (r : EReal))
    (b : Fin 4) (s : Fin 4096) (g : Fin 1024) :
    viaGram x wa wb wc wd b s g = viaScores x wa wb wc wd b s g := by
  unfold viaGram viaScores
  simp only [mixGram_eq_mixScore x wa wb wc hx ha hb hc]

end Cert.Spec

end
-- ==== Proof.lean ====
/-
  The block computes relu(x·Waᵀ), relu(x·Wbᵀ), relu(x·Wcᵀ) — call them A, Bm, C, per batch — and then a product of
  the three with no non-linearity between them, projected by Wd and rectified. The reference forms the scores
  P = A·Bmᵀ (sequence × sequence) and then P·C; the kernel forms the Gram matrix M = Bmᵀ·C (feature × feature),
  accumulated over the sequence tiles of a batch by a first call, and then A·M by a second call. Over the extended
  reals the two agree wherever the inputs are real numbers: every entry is then a real number, the product
  distributes over the finite sums, and the two orders of summation are exchanged. The precondition (every input
  finite) is used exactly there.

  The frames: each program runs to the end from any memory, faults nowhere, and leaves its arguments as launched —
  the kernel at both readings through the run of its two calls over the buffer contents at each boundary, the
  reference through its straight-line run. The ideal pass rewrote no operation, so the idealized kernel is the
  kernel's own text read at the ideal values.
-/
import proofs.«157593_j45191645889033_2_alg».proof.Defs
import proofs.«157593_j45191645889033_2_alg».proof.Proof.Gen.Kernel
import proofs.«157593_j45191645889033_2_alg».proof.Proof.Gen.KernelIdeal
import proofs.«157593_j45191645889033_2_alg».proof.Proof.Gen.ReferenceIdeal
import proofs.«157593_j45191645889033_2_alg».proof.Proof.Gen.Pre_finite_inputs
import proofs.«157593_j45191645889033_2_alg».proof.Proof.Kernel.Run
import proofs.«157593_j45191645889033_2_alg».proof.Proof.KernelIdeal.Value
import proofs.«157593_j45191645889033_2_alg».proof.Proof.RefValue
import proofs.«157593_j45191645889033_2_alg».proof.Proof.Finite
import proofs.«157593_j45191645889033_2_alg».proof.Proof.Reassoc
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := Cert.ReferenceIdeal.RefValue.frame_ri

/-- The ideal pass rewrote nothing. -/
theorem preserves : Cert.preserves_Kernel_KernelIdeal := trivial

/-- At the ideal values the kernel's result array ends at the result through the Gram matrix and the reference's at
    the result through the scores, of arguments that agree and are real numbers: one function. -/
theorem algebraic : Cert.algebraic_KernelIdeal_ReferenceIdeal := by
  intro m ρ m' ρ' hpre hagree
  refine ⟨fun c => fun i => Cert.Spec.viaScores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (i 0) (i 1) (i 2), ?_, ?_⟩
  · refine (θ_run Cert.KernelIdeal.defs _ _).mono (fun _ h c => ⟨?_, ?_, ?_, ?_, ?_, ?_⟩) (Cert.KernelIdeal.Frame.run_all m ρ)
    · obtain ⟨hx, ha, hb, hc, _⟩ := Cert.Finite.reals_of_pre _ _ _ _ _ (hpre c)
      refine ((h c _ (Cert.KernelIdeal.Frame.mem_uc Cert.KernelIdeal.main_v9 (by decide))).trans
        (Cert.KernelIdeal.Frame.result_value m c)).trans ?_
      funext i
      exact Cert.Spec.viaGram_eq_viaScores _ _ _ _ _ hx ha hb hc (i 0) (i 1) (i 2)
    · exact (h c _ (Cert.KernelIdeal.Frame.mem_uc Cert.KernelIdeal.main_arg0 (by decide))).trans (Cert.KernelIdeal.Frame.B3_main_arg0 m c)
    · exact (h c _ (Cert.KernelIdeal.Frame.mem_uc Cert.KernelIdeal.main_arg1 (by decide))).trans (Cert.KernelIdeal.Frame.B3_main_arg1 m c)
    · exact (h c _ (Cert.KernelIdeal.Frame.mem_uc Cert.KernelIdeal.main_arg2 (by decide))).trans (Cert.KernelIdeal.Frame.B3_main_arg2 m c)
    · exact (h c _ (Cert.KernelIdeal.Frame.mem_uc Cert.KernelIdeal.main_arg3 (by decide))).trans (Cert.KernelIdeal.Frame.B3_main_arg3 m c)
    · exact (h c _ (Cert.KernelIdeal.Frame.mem_uc Cert.KernelIdeal.main_arg4 (by decide))).trans (Cert.KernelIdeal.Frame.B3_main_arg4 m c)
  · refine (θ_run Cert.ReferenceIdeal.defs _ _).mono (fun _ h c => ⟨?_, (h c).2⟩) (Cert.ReferenceIdeal.RefValue.run m' ρ')
    rw [(h c).1, (hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
